-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S102400x128 : Shape := ⟨2, ![102400, 128]⟩
abbrev S102400x64 : Shape := ⟨2, ![102400, 64]⟩
abbrev S4096x128 : Shape := ⟨2, ![4096, 128]⟩
abbrev S4096x64 : Shape := ⟨2, ![4096, 64]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x32 : Shape := ⟨2, ![100000, 32]⟩
abbrev S1x32 : Shape := ⟨2, ![1, 32]⟩

abbrev nBuf : Space → Nat
  | .hbm => 105
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S_, .f32⟩
  | .hbm, ⟨50, _⟩ => ⟨S102400x128, .f32⟩
  | .hbm, ⟨51, _⟩ => ⟨S102400x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S64x64, .f32⟩
  | .hbm, ⟨92, _⟩ => ⟨S_, .i32⟩
  | .hbm, ⟨93, _⟩ => ⟨S_, .f32⟩
  | .hbm, ⟨94, _⟩ => ⟨S102400x64, .f32⟩
  | .hbm, ⟨95, _⟩ => ⟨S102400x64, .f32⟩
  | .hbm, ⟨96, _⟩ => ⟨S100000x64, .f32⟩
  | .hbm, ⟨97, _⟩ => ⟨S100000x32, .f32⟩
  | .hbm, ⟨98, _⟩ => ⟨S1x32, .f32⟩
  | .hbm, ⟨99, _⟩ => ⟨S100000x32, .f32⟩
  | .hbm, ⟨100, _⟩ => ⟨S100000x32, .f32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | .local _ .vmem, ⟨0, _⟩ => ⟨S4096x128, .f32⟩
  | .local _ .vmem, ⟨1, _⟩ => ⟨S4096x128, .f32⟩
  | .local _ .vmem, ⟨2, _⟩ => ⟨S128x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S64x64, .f32⟩
  | .local _ .vmem, ⟨8, _⟩ => ⟨S4096x64, .f32⟩
  | .local _ .vmem, ⟨9, _⟩ => ⟨S4096x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call2_cst : Ref sig .tc := ⟨.hbm, 72, rfl⟩
abbrev main_call2_v0 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_call3_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x128_S102400x128_024000_000 : S100000x128.Pads (![0, 0] : Fin 2 → Nat) ![2400, 0] ![0, 0] S102400x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  slices_S102400x64_S100000x64_0_0 : S102400x64.Slices ![0, 0] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S64x32_S64x32_S64x64_d1 : Shape.Concatenates [S64x32, S64x32] S64x64 1
  pads_S100000x64_S102400x64_024000_000 : S100000x64.Pads (![0, 0] : Fin 2 → Nat) ![2400, 0] ![0, 0] S102400x64
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S100000x64_S100000x32_0_32 : S100000x64.Slices ![0, 32] S100000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4096x128_S128x64_S4096x64_1_0_0_1_n_n_wf : DotDims.WF S4096x128 S128x64 S4096x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .f32 = 32 ∨ (Rect.block (s := S102400x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S102400x64.size a
  hwx1_2 : ∀ i : grid1.Coords, EltTy.bits .f32 = 32 ∨ (Rect.block (s := S102400x64) S4096x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v30) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v64) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x32, .f32⟩
  | 117 => ⟨S1700000x1, .f32⟩
  | 118 => ⟨S1700000x32, .f32⟩
  | 119 => ⟨S1700000x32, .f32⟩
  | 120 => ⟨S_, .f32⟩
  | 121 => ⟨S100000x32, .f32⟩
  | 122 => ⟨S1700000x1, .i32⟩
  | 123 => ⟨S100000x32, .f32⟩
  | 124 => ⟨S1x32, .f32⟩
  | 125 => ⟨S100000x32, .f32⟩
  | 126 => ⟨S100000x32, .f32⟩
  | 127 => ⟨S100000x32, .f32⟩
  | _ => ⟨S100000x128, .f32⟩

abbrev hbmTy0_1 (i : Nat) : BufTy := match i % 128 with
  | 0 => ⟨S100000, .i32⟩
  | 1 => ⟨S1700000, .i32⟩
  | 2 => ⟨S1700000, .i32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x32, .f32⟩
  | 45 => ⟨S1700000x1, .f32⟩
  | 46 => ⟨S1700000x32, .f32⟩
  | 47 => ⟨S1700000x32, .f32⟩
  | 48 => ⟨S_, .f32⟩
  | 49 => ⟨S100000x32, .f32⟩
  | 50 => ⟨S1700000x1, .i32⟩
  | 51 => ⟨S100000x32, .f32⟩
  | 52 => ⟨S1x32, .f32⟩
  | 53 => ⟨S100000x32, .f32⟩
  | 54 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_call3_v0 : Ref sig .tc := ⟨.hbm, 142, rfl⟩
abbrev main_call3_v1 : Ref sig .tc := ⟨.hbm, 143, rfl⟩
abbrev main_v102 : Ref sig .tc := ⟨.hbm, 144, rfl⟩
abbrev main_c_24 : Ref sig .tc := ⟨.hbm, 145, rfl⟩
abbrev main_v103 : Ref sig .tc := ⟨.hbm, 146, rfl⟩
abbrev main_v104 : Ref sig .tc := ⟨.hbm, 147, rfl⟩
abbrev main_c_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_26 : Ref sig .tc := ⟨.hbm, 154, rfl⟩
abbrev main_v110 : Ref sig .tc := ⟨.hbm, 155, rfl⟩
abbrev main_v111 : Ref sig .tc := ⟨.hbm, 156, rfl⟩
abbrev main_c_27 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_28 : Ref sig .tc := ⟨.hbm, 164, rfl⟩
abbrev main_v118 : Ref sig .tc := ⟨.hbm, 165, rfl⟩
abbrev main_v119 : Ref sig .tc := ⟨.hbm, 166, rfl⟩
abbrev main_c_29 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The run of the idealized kernel program with its two RESULTS named.

  @main is eleven segments: stretches of host operations around two pallas_call regions.  The buffer contents at each
  segment boundary are a fold from the launch memory (`W0 … W11`): a stretch of host operations applies them in order, a
  region replaces its arrays by what its write-backs leave.  Every weakly fair execution terminates, nothing faulting,
  with every unscoped buffer at the last boundary's contents; so the two results end at `W11` read at their buffers, and
  the arguments end as launched.  This is the launch theorem for several regions over the program's segments, with the
  results kept in the post beside the arguments.
-/
import proofs.«131048_j28286654612005_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the first result at the last boundary's contents of
    `main_v70`, the second at those of `main_v74`, and the argument arrays as launched. -/
theorem run_results : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_v74) = W11 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       h c _ (mem_uc main_v74 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunV

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.RegionValue.lean ====
/-
  What each of the two pallas_call regions leaves in its output array, at the ideal values.

  Both regions run the same body over a grid of 25 points: point t loads rows [4096 t, 4096 t + 4096) of the first array
  and the whole second array, rounds both to bf16 (the identity at the ideal values), multiplies them into a zero f32
  accumulator and stores the [4096, 64] product as rows [4096 t, 4096 t + 4096) of the output.  So entry (n, q) of the
  output array is  Σ_k first(n, k) · second(k, q)  for every n < 102400: the 25 row blocks tile the output, and a block's
  entry reads the first array in the block's own rows.  The arrays are taken as the region finds them (`V`).
-/
import proofs.«131048_j28286654612005_2_alg».proof.Proof.Gen.KernelIdeal.Frame
import proofs.«131048_j28286654612005_2_alg».proof.Proof.LibMatmulZero
import Idealize.ShloMosaic.Lib.Pipeline.Value
import Idealize.ShloMosaic.Lib.ValueIdx

set_option maxRecDepth 16384

noncomputable section

open scoped BigOperators

namespace Cert.KernelIdeal.RegionV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: the rows of `main_v30` times `main_arg2` -/

/-- The product of a [102400, 128] array with a [128, 64] matrix, entry by entry. -/
def prod0 (x : FVec Ideal S102400x128 .f32) (w : FVec Ideal S128x64 .f32) : FVec Ideal S102400x64 .f32 :=
  fun i => ∑ k : Fin 128, x (ix2 (⟨(i 0).val, idx2_lt0 i⟩ : Fin 102400) k) * w (ix2 k (⟨(i 1).val, idx2_lt1 i⟩ : Fin 64))

theorem prod0_ix2 (x : FVec Ideal S102400x128 .f32) (w : FVec Ideal S128x64 .f32) (p : Fin 102400) (q : Fin 64) :
    prod0 x w (ix2 p q) = ∑ k : Fin 128, x (ix2 p k) * w (ix2 k q) := rfl

/-- The body's value at one entry of the block: the rounding to bf16 is the identity at the ideal values, and the matrix
    product into the zero accumulator is the sum over the contracted axis. -/
theorem pay0_apply (x0 : Vec Ideal S4096x128 .f32) (x1 : Vec Ideal S128x64 .f32) (p : Fin 4096) (q : Fin 64) :
    k0_pay1 x0 x1 (ix2 p q) = ∑ k : Fin 128, x0 (ix2 p k) * x1 (ix2 k q) := by
  unfold k0_pay1
  refine (Cert.LibMatmulZero.matmul_zero_ix2 dot_S4096x128_S128x64_S4096x64_1_0_0_1_n_n rfl rfl rfl rfl
    (fun i c => by
      unfold DotDims.lhsIdx
      rw [dif_neg (show ¬(0 : Fin _) ∈ dot_S4096x128_S128x64_S4096x64_1_0_0_1_n_n.lhsBatch by decide), dif_pos (show (0 : Fin _) ∈ dot_S4096x128_S128x64_S4096x64_1_0_0_1_n_n.lhsNonContracting by decide)]
      rfl)
    (fun i c => by
      unfold DotDims.rhsIdx
      rw [dif_neg (show ¬(1 : Fin _) ∈ dot_S4096x128_S128x64_S4096x64_1_0_0_1_n_n.rhsBatch by decide), dif_pos (show (1 : Fin _) ∈ dot_S4096x128_S128x64_S4096x64_1_0_0_1_n_n.rhsNonContracting by decide)]
      rfl)
    none _ _ p q).trans ?_
  refine Finset.sum_congr rfl fun k _ => ?_
  rw [truncf_apply, truncf_apply, shapeCast_self]

/-- The printed index maps over the grid: the row block of the input and of the output is the point's own, every other
    block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block of the output is some point's. -/
theorem idx_onto0 : ∀ (q0 : Fin 25), ∃ t : Fin cfg0.N, win0_2.index t = ![q0.val, 0] :=
  (by decide +kernel : ∀ (q0 : Fin 25), ∃ t : Fin grid0.N, win0_2.index t = ![q0.val, 0])

/-- What point `t` writes back is block `t` of the product of the two arrays as the region finds them. -/
theorem flushed0 (c : Dev nD) (t : Fin cfg0.N) :
    (dat0 V c).flushed 2 t = ((cfg0.win 2).blk t).view.read (Elt Ideal) (prod0 (V c main_v30) (V c main_arg2)) := by
  show (cfg0.win 2).cut (grid0.coords t) ((dat0 V c).after 2 t) = _
  rw [after0_2]
  unfold out0_2
  rw [View.canon_unit_zero hz]
  simp only [View.ld_unit_zero (S := S4096x128) hz, View.ld_unit_zero (S := S128x64) hz]
  obtain ⟨e0, e1, e2, e3, e4, e5⟩ := idx_facts0 t
  funext j
  obtain ⟨p, q, rfl⟩ : ∃ (p : Fin 4096) (q : Fin 64), j = ix2 p q := ⟨j 0, j 1, eq_ix2 j⟩
  show k0_pay1 (iblk0 V c 0 t) (iblk0 V c 1 t) (ix2 p q)
    = prod0 (V c main_v30) (V c main_arg2) (((cfg0.win 2).blk t).view.emb (ix2 p q))
  refine (pay0_apply (iblk0 V c 0 t) (iblk0 V c 1 t) p q).trans ?_
  refine Finset.sum_congr rfl fun k _ => ?_
  have hx : iblk0 V c 0 t (ix2 p k)
      = V c main_v30 (ix2 (⟨((((cfg0.win 2).blk t).view.emb (ix2 p q)) 0).val, idx2_lt0 _⟩ : Fin 102400) k) := by
    show V c main_v30 (((cfg0.win 0).blk t).view.emb (ix2 p k)) = _
    refine congrArg (V c main_v30) (funext fun a => Fin.ext ?_)
    match a with
    | ⟨0, _⟩ => show win0_0.index t (0 : Fin 2) * 4096 + 1 * p.val = win0_2.index t (0 : Fin 2) * 4096 + 1 * p.val; omega
    | ⟨1, _⟩ => show win0_0.index t (1 : Fin 2) * 128 + 1 * k.val = k.val; omega
  have hw : iblk0 V c 1 t (ix2 k q)
      = V c main_arg2 (ix2 k (⟨((((cfg0.win 2).blk t).view.emb (ix2 p q)) 1).val, idx2_lt1 _⟩ : Fin 64)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hx, hw]

/-- An index of the output array is in point `t`'s block iff each coordinate is in the block's range on its axis. -/
theorem mem_blk0 (t : Fin cfg0.N) (i : S102400x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v31).slice (win0_2.rect t)).set ↔ _
  rw [View.set_slice_whole, Rect.mem_set_unit]
  exact Iff.rfl

/-- The 25 row blocks tile the output array. -/
theorem cover0 (i : S102400x64.Idx) :
    ∃ t : Fin cfg0.N, (cfg0.win 2).flush t = true ∧ i ∈ ((cfg0.win 2).blk t).view.set := by
  have hi0 : (i 0).val < 102400 := (i 0).isLt
  have hi1 : (i 1).val < 64 := (i 1).isLt
  obtain ⟨t, ht⟩ := idx_onto0 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 64 ≤ (i 1).val ∧ (i 1).val < win0_2.index t (1 : Fin 2) * 64 + 64; omega

/-- The output array after the region is the product of the two input arrays as the region finds them. -/
theorem final0 (c : Dev nD) : (dat0 V c).arrAt 2 cfg0.N = prod0 (V c main_v30) (V c main_arg2) :=
  (dat0 V c).arrAt_eq_of_cover 2 _ (fun t _ => flushed0 V c t) cover0

/-! ## Region 1: the rows of `main_v64` times `main_v63` -/

/-- The product of a [102400, 64] array with a [64, 64] matrix, entry by entry. -/
def prod1 (x : FVec Ideal S102400x64 .f32) (w : FVec Ideal S64x64 .f32) : FVec Ideal S102400x64 .f32 :=
  fun i => ∑ k : Fin 64, x (ix2 (⟨(i 0).val, idx2_lt0 i⟩ : Fin 102400) k) * w (ix2 k (⟨(i 1).val, idx2_lt1 i⟩ : Fin 64))

theorem prod1_ix2 (x : FVec Ideal S102400x64 .f32) (w : FVec Ideal S64x64 .f32) (p : Fin 102400) (q : Fin 64) :
    prod1 x w (ix2 p q) = ∑ k : Fin 64, x (ix2 p k) * w (ix2 k q) := rfl

/-- The body's value at one entry of the block: the rounding to bf16 is the identity at the ideal values, and the matrix
    product into the zero accumulator is the sum over the contracted axis. -/
theorem pay1_apply (x0 : Vec Ideal S4096x64 .f32) (x1 : Vec Ideal S64x64 .f32) (p : Fin 4096) (q : Fin 64) :
    k1_pay1 x0 x1 (ix2 p q) = ∑ k : Fin 64, x0 (ix2 p k) * x1 (ix2 k q) := by
  unfold k1_pay1
  refine (Cert.LibMatmulZero.matmul_zero_ix2 dot_S4096x64_S64x64_S4096x64_1_0_0_1_n_n rfl rfl rfl rfl
    (fun i c => by
      unfold DotDims.lhsIdx
      rw [dif_neg (show ¬(0 : Fin _) ∈ dot_S4096x64_S64x64_S4096x64_1_0_0_1_n_n.lhsBatch by decide), dif_pos (show (0 : Fin _) ∈ dot_S4096x64_S64x64_S4096x64_1_0_0_1_n_n.lhsNonContracting by decide)]
      rfl)
    (fun i c => by
      unfold DotDims.rhsIdx
      rw [dif_neg (show ¬(1 : Fin _) ∈ dot_S4096x64_S64x64_S4096x64_1_0_0_1_n_n.rhsBatch by decide), dif_pos (show (1 : Fin _) ∈ dot_S4096x64_S64x64_S4096x64_1_0_0_1_n_n.rhsNonContracting by decide)]
      rfl)
    none _ _ p q).trans ?_
  refine Finset.sum_congr rfl fun k _ => ?_
  rw [truncf_apply, truncf_apply, shapeCast_self, shapeCast_self]

/-- The printed index maps over the grid: the row block of the input and of the output is the point's own, every other
    block index is zero. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every row block of the output is some point's. -/
theorem idx_onto1 : ∀ (q0 : Fin 25), ∃ t : Fin cfg1.N, win1_2.index t = ![q0.val, 0] :=
  (by decide +kernel : ∀ (q0 : Fin 25), ∃ t : Fin grid1.N, win1_2.index t = ![q0.val, 0])

/-- What point `t` writes back is block `t` of the product of the two arrays as the region finds them. -/
theorem flushed1 (c : Dev nD) (t : Fin cfg1.N) :
    (dat1 V c).flushed 2 t = ((cfg1.win 2).blk t).view.read (Elt Ideal) (prod1 (V c main_v64) (V c main_v63)) := by
  show (cfg1.win 2).cut (grid1.coords t) ((dat1 V c).after 2 t) = _
  rw [after1_2]
  unfold out1_2
  rw [View.canon_unit_zero hz]
  simp only [View.ld_unit_zero (S := S4096x64) hz, View.ld_unit_zero (S := S64x64) hz]
  obtain ⟨e0, e1, e2, e3, e4, e5⟩ := idx_facts1 t
  funext j
  obtain ⟨p, q, rfl⟩ : ∃ (p : Fin 4096) (q : Fin 64), j = ix2 p q := ⟨j 0, j 1, eq_ix2 j⟩
  show k1_pay1 (iblk1 V c 0 t) (iblk1 V c 1 t) (ix2 p q)
    = prod1 (V c main_v64) (V c main_v63) (((cfg1.win 2).blk t).view.emb (ix2 p q))
  refine (pay1_apply (iblk1 V c 0 t) (iblk1 V c 1 t) p q).trans ?_
  refine Finset.sum_congr rfl fun k _ => ?_
  have hx : iblk1 V c 0 t (ix2 p k)
      = V c main_v64 (ix2 (⟨((((cfg1.win 2).blk t).view.emb (ix2 p q)) 0).val, idx2_lt0 _⟩ : Fin 102400) k) := by
    show V c main_v64 (((cfg1.win 0).blk t).view.emb (ix2 p k)) = _
    refine congrArg (V c main_v64) (funext fun a => Fin.ext ?_)
    match a with
    | ⟨0, _⟩ => show win1_0.index t (0 : Fin 2) * 4096 + 1 * p.val = win1_2.index t (0 : Fin 2) * 4096 + 1 * p.val; omega
    | ⟨1, _⟩ => show win1_0.index t (1 : Fin 2) * 64 + 1 * k.val = k.val; omega
  have hw : iblk1 V c 1 t (ix2 k q)
      = V c main_v63 (ix2 k (⟨((((cfg1.win 2).blk t).view.emb (ix2 p q)) 1).val, idx2_lt1 _⟩ : Fin 64)) := by
    show V c main_v63 (((cfg1.win 1).blk t).view.emb (ix2 k q)) = _
    refine congrArg (V c main_v63) (funext fun a => Fin.ext ?_)
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  rw [hx, hw]

/-- An index of the output array is in point `t`'s block iff each coordinate is in the block's range on its axis. -/
theorem mem_blk1 (t : Fin cfg1.N) (i : S102400x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v65).slice (win1_2.rect t)).set ↔ _
  rw [View.set_slice_whole, Rect.mem_set_unit]
  exact Iff.rfl

/-- The 25 row blocks tile the output array. -/
theorem cover1 (i : S102400x64.Idx) :
    ∃ t : Fin cfg1.N, (cfg1.win 2).flush t = true ∧ i ∈ ((cfg1.win 2).blk t).view.set := by
  have hi0 : (i 0).val < 102400 := (i 0).isLt
  have hi1 : (i 1).val < 64 := (i 1).isLt
  obtain ⟨t, ht⟩ := idx_onto1 ⟨(i 0).val / 4096, by omega⟩
  have q0 : win1_2.index t (0 : Fin 2) = (i 0).val / 4096 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 64 ≤ (i 1).val ∧ (i 1).val < win1_2.index t (1 : Fin 2) * 64 + 64; omega

/-- The output array after the region is the product of the two input arrays as the region finds them. -/
theorem final1 (c : Dev nD) : (dat1 V c).arrAt 2 cfg1.N = prod1 (V c main_v64) (V c main_v63) :=
  (dat1 V c).arrAt_eq_of_cover 2 _ (fun t _ => flushed1 V c t) cover1

end Cert.KernelIdeal.RegionV

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGcn.lean ====
/-
  One layer of normalised neighbour aggregation over an edge list, read at one entry — for any number of nodes N,
  channels C and edges M.

  An edge e has a source word s(e) and a target word d(e).  A word is turned into a node by wrapping a negative word
  from the end (w + nW where w < 0) and clamping the signed result into [0, N - 1]: write g(w) for that node.
  With a node table h : [N, C] and a node weight v : [N], every edge sends h(g(s e), ·) · (v(g(s e)) · v(g(d e))) to
  the node whose number its target word IS (read signed, not wrapped, not clamped; a word outside [0, N) sends
  nothing).  So the aggregate at (n, q) is

      0 + Σ_{e < M} [d(e) = n] · h(g(s e), q) · (v(g(s e)) · v(g(d e)))                          (aggG_apply)

  and the number of edges arriving at n, counted with a weight `one` each, is  0 + Σ_{e < M} [d(e) = n] · one
  (degG_apply).  Both are finite sums of extended reals; nothing needs to be finite.
-/
import Idealize.ShloMosaic.PureOps.Ideal.Laws
import Idealize.ShloMosaic.Lib.ValueIdx
import Idealize.ShloMosaic.Lib.Pipeline.Value
import proofs.«131048_j28286654612005_2_alg».proof.Proof.LibSegSum
import proofs.«131048_j28286654612005_2_alg».proof.Proof.LibGraphOps
import proofs.«131048_j28286654612005_2_alg».proof.Proof.LibBcast

noncomputable section

open scoped BigOperators

namespace Cert.Gcn

open Idealize.ShloMosaic Idealize.ShloMosaic.ValueIdx

/-- The shape of a scalar. -/
abbrev S0 : Shape := ⟨0, ![]⟩

section
variable {N C M : Nat} (hN : 0 < N) (nW : BitVec 32)
  (bM : S0.BroadcastsInDim ⟨1, ![M]⟩ ![]) (bN : S0.BroadcastsInDim ⟨1, ![N]⟩ ![]) (bNC : S0.BroadcastsInDim ⟨2, ![N, C]⟩ ![])
  (bM1 : (⟨1, ![M]⟩ : Shape).BroadcastsInDim ⟨2, ![M, 1]⟩ ![0])
  (bMC : (⟨2, ![M, 1]⟩ : Shape).BroadcastsInDim ⟨2, ![M, C]⟩ ![0, 1])
  (wfSv : ScatterDims.WF ⟨1, ![N]⟩ ⟨2, ![M, 1]⟩ ⟨1, ![M]⟩ [] [0] [0] 1)
  (wfGv : GatherDims.WF ⟨1, ![N]⟩ ⟨2, ![M, 1]⟩ ⟨1, ![M]⟩ [] [0] [] [0] [] 1 ![1])
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)

/-- The node a word names: wrapped from the end where negative, then clamped into the table. -/
def node (w : BitVec 32) : Fin N :=
  LibGraph.clampIdx N hN (Scalar.select (IntOp.cmpi .slt w 0#32) (IntOp.addi w nW) w)

/-- The wrap, on a whole vector of words. -/
def wrapv (v : IVec ⟨1, ![M]⟩ 32) : IVec ⟨1, ![M]⟩ 32 :=
  select (cmpi .slt v (broadcastInDim ⟨1, ![M]⟩ ![] bM (constantI S0 32 0#32)))
    (addi v (broadcastInDim ⟨1, ![M]⟩ ![] bM (constantI S0 32 nW))) v

theorem wrapv_apply (v : IVec ⟨1, ![M]⟩ 32) (e : Fin M) :
    wrapv nW bM v (ix1 e) = Scalar.select (IntOp.cmpi .slt (v (ix1 e)) 0#32) (IntOp.addi (v (ix1 e)) nW) (v (ix1 e)) := by
  show Scalar.select (IntOp.cmpi .slt (v (ix1 e)) (broadcastInDim ⟨1, ![M]⟩ ![] bM (constantI S0 32 0#32) (ix1 e)))
      (IntOp.addi (v (ix1 e)) (broadcastInDim ⟨1, ![M]⟩ ![] bM (constantI S0 32 nW) (ix1 e))) (v (ix1 e)) = _
  rw [LibBcast.bcastScalar_apply, LibBcast.bcastScalar_apply]
  rfl

/-- The number of edges arriving at each node, each counted `one`. -/
def degG (one : BitVec 32) (dst : IVec ⟨1, ![M]⟩ 32) : FVec Ideal ⟨1, ![N]⟩ .f32 :=
  Host.scatterAdd (F := Ideal) (LibSegSum.vecScatter N M wfSv)
    (broadcastInDim ⟨1, ![N]⟩ ![] bN (constant (F := Ideal) S0 .f32 0x00000000#32))
    (broadcastInDim ⟨2, ![M, 1]⟩ ![0] bM1 dst)
    (broadcastInDim ⟨1, ![M]⟩ ![] bM (constant (F := Ideal) S0 .f32 one))

theorem degG_apply (one : BitVec 32) (dst : IVec ⟨1, ![M]⟩ 32) (n : Fin N) :
    (degG bM bN bM1 wfSv one dst (ix1 n) : EReal)
      = (0 : EReal) + ∑ e : Fin M, if (dst (ix1 e)).toInt = (n.val : Int) then (Ideal.ofBits .f32 one : EReal) else (0 : EReal) := by
  unfold degG
  rw [LibSegSum.scatterVec_apply, LibBcast.bcastScalar_apply]
  refine congrArg₂ (· + ·) Ideal.ofBits_zero_f32 (Finset.sum_congr rfl fun e _ => ?_)
  rw [LibBcast.bcastVecCol_apply, LibBcast.bcastScalar_apply]
  rfl

/-- What an edge with source word s and target word d sends to channel q of its target. -/
def term (h : FVec Ideal ⟨2, ![N, C]⟩ .f32) (dinv : FVec Ideal ⟨1, ![N]⟩ .f32) (q : Fin C) (s d : BitVec 32) : EReal :=
  (h (ix2 (node hN nW s) q) : EReal) * ((dinv (ix1 (node hN nW s)) : EReal) * (dinv (ix1 (node hN nW d)) : EReal))

/-- The aggregate: every edge's message scattered, with addition, to its target. -/
def aggG (dinv : FVec Ideal ⟨1, ![N]⟩ .f32) (h : FVec Ideal ⟨2, ![N, C]⟩ .f32) (src dst : IVec ⟨1, ![M]⟩ 32) :
    FVec Ideal ⟨2, ![N, C]⟩ .f32 :=
  Host.scatterAdd (F := Ideal) (LibSegSum.rowsScatter N C M wfSr)
    (broadcastInDim ⟨2, ![N, C]⟩ ![] bNC (constant (F := Ideal) S0 .f32 0x00000000#32))
    (broadcastInDim ⟨2, ![M, 1]⟩ ![0] bM1 dst)
    (mulf (Host.gather (LibGraph.rowsGather N C M wfGr) h (broadcastInDim ⟨2, ![M, 1]⟩ ![0] bM1 (wrapv nW bM src)))
      (broadcastInDim ⟨2, ![M, C]⟩ ![0, 1] bMC (broadcastInDim ⟨2, ![M, 1]⟩ ![0] bM1
        (mulf (Host.gather (LibGraph.vecGather N M wfGv) dinv (broadcastInDim ⟨2, ![M, 1]⟩ ![0] bM1 (wrapv nW bM src)))
          (Host.gather (LibGraph.vecGather N M wfGv) dinv (broadcastInDim ⟨2, ![M, 1]⟩ ![0] bM1 (wrapv nW bM dst)))))))

theorem aggG_apply (dinv : FVec Ideal ⟨1, ![N]⟩ .f32) (h : FVec Ideal ⟨2, ![N, C]⟩ .f32) (src dst : IVec ⟨1, ![M]⟩ 32)
    (n : Fin N) (q : Fin C) :
    (aggG nW bM bNC bM1 bMC wfGv wfGr wfSr dinv h src dst (ix2 n q) : EReal)
      = (0 : EReal) + ∑ e : Fin M, if (dst (ix1 e)).toInt = (n.val : Int)
          then term hN nW h dinv q (src (ix1 e)) (dst (ix1 e)) else (0 : EReal) := by
  unfold aggG term
  rw [LibSegSum.scatterRows_apply, LibBcast.bcastScalar_apply]
  refine congrArg₂ (· + ·) Ideal.ofBits_zero_f32 (Finset.sum_congr rfl fun e _ => ?_)
  rw [LibBcast.bcastVecCol_apply]
  refine if_congr Iff.rfl ?_ rfl
  rw [mulf_apply, LibGraph.gatherRows_apply hN, LibBcast.bcastVecCol_apply, LibBcast.bcastCol_apply,
    LibBcast.bcastVecCol_apply, mulf_apply, LibGraph.gatherVec_apply hN, LibGraph.gatherVec_apply hN,
    LibBcast.bcastVecCol_apply, LibBcast.bcastVecCol_apply, wrapv_apply, wrapv_apply]
  rfl

end

end Cert.Gcn

end
-- ==== Proof.Spec.lean ====
/-
  Two graph-convolution layers over an edge list with self-loops, as whole-array functions at the ideal values.

  The graph has 100000 nodes and 1600000 edges given as a [2, 1600000] array of words: row 0 the sources, row 1 the
  targets.  One self-loop per node is appended, so the edge list has 1700000 entries (`srcW`, `dstW`).  The degree of a
  node counts the edges arriving at it, each as 1.0 (`degV`); the node weight is deg^(-1/2) where the degree is positive
  and 0 elsewhere (`dinvV`).  A layer's aggregate sends, along every edge, the source's row scaled by the two ends' node
  weights to the target (`agg`, over the general aggregate of the graph library).  The hidden layer adds a bias row to the
  aggregate of its input and clips at zero (`hidden`); an output adds a bias row to an aggregate (`outOf`).
  The shape side conditions are collected in one proposition `Side`, so that two programs stating them separately
  speak of the same functions.
-/
import proofs.«131048_j28286654612005_2_alg».proof.Proof.LibGcn

noncomputable section

namespace Cert.Spec

open Idealize.ShloMosaic Idealize.ShloMosaic.ValueIdx Cert.Gcn

/-- The shape facts the layers' operations state. -/
structure Side : Prop where
  sl0 : (⟨2, ![2, 1600000]⟩ : Shape).Slices ![0, 0] ⟨2, ![1, 1600000]⟩
  sl1 : (⟨2, ![2, 1600000]⟩ : Shape).Slices ![1, 0] ⟨2, ![1, 1600000]⟩
  sc : (⟨2, ![1, 1600000]⟩ : Shape).ShapeCasts ⟨1, ![1600000]⟩
  cat : Shape.Concatenates [⟨1, ![1600000]⟩, ⟨1, ![100000]⟩] ⟨1, ![1700000]⟩ 0
  bM : S0.BroadcastsInDim ⟨1, ![1700000]⟩ ![]
  bN : S0.BroadcastsInDim ⟨1, ![100000]⟩ ![]
  bN64 : S0.BroadcastsInDim ⟨2, ![100000, 64]⟩ ![]
  bN32 : S0.BroadcastsInDim ⟨2, ![100000, 32]⟩ ![]
  bM1 : (⟨1, ![1700000]⟩ : Shape).BroadcastsInDim ⟨2, ![1700000, 1]⟩ ![0]
  bM64 : (⟨2, ![1700000, 1]⟩ : Shape).BroadcastsInDim ⟨2, ![1700000, 64]⟩ ![0, 1]
  bM32 : (⟨2, ![1700000, 1]⟩ : Shape).BroadcastsInDim ⟨2, ![1700000, 32]⟩ ![0, 1]
  wfSv : ScatterDims.WF ⟨1, ![100000]⟩ ⟨2, ![1700000, 1]⟩ ⟨1, ![1700000]⟩ [] [0] [0] 1
  wfGv : GatherDims.WF ⟨1, ![100000]⟩ ⟨2, ![1700000, 1]⟩ ⟨1, ![1700000]⟩ [] [0] [] [0] [] 1 ![1]
  wfGr64 : GatherDims.WF ⟨2, ![100000, 64]⟩ ⟨2, ![1700000, 1]⟩ ⟨2, ![1700000, 64]⟩ [1] [0] [] [0] [] 1 ![1, 64]
  wfGr32 : GatherDims.WF ⟨2, ![100000, 32]⟩ ⟨2, ![1700000, 1]⟩ ⟨2, ![1700000, 32]⟩ [1] [0] [] [0] [] 1 ![1, 32]
  wfSr64 : ScatterDims.WF ⟨2, ![100000, 64]⟩ ⟨2, ![1700000, 1]⟩ ⟨2, ![1700000, 64]⟩ [1] [0] [0] 1
  wfSr32 : ScatterDims.WF ⟨2, ![100000, 32]⟩ ⟨2, ![1700000, 1]⟩ ⟨2, ![1700000, 32]⟩ [1] [0] [0] 1
  b64a : (⟨1, ![64]⟩ : Shape).BroadcastsInDim ⟨2, ![1, 64]⟩ ![1]
  b64b : (⟨2, ![1, 64]⟩ : Shape).BroadcastsInDim ⟨2, ![100000, 64]⟩ ![0, 1]
  b32a : (⟨1, ![32]⟩ : Shape).BroadcastsInDim ⟨2, ![1, 32]⟩ ![1]
  b32b : (⟨2, ![1, 32]⟩ : Shape).BroadcastsInDim ⟨2, ![100000, 32]⟩ ![0, 1]

variable (sd : Side)

/-- The source words of the edge list with the self-loops appended. -/
def srcW (e : IVec ⟨2, ![2, 1600000]⟩ 32) : IVec ⟨1, ![1700000]⟩ 32 :=
  concatenate ⟨1, ![1700000]⟩ 0
    [⟨⟨1, ![1600000]⟩, shapeCast ⟨1, ![1600000]⟩ (extractStridedSlice ⟨2, ![1, 1600000]⟩ ![0, 0] e sd.sl0) sd.sc⟩,
     ⟨⟨1, ![100000]⟩, iotaInDim ⟨1, ![100000]⟩ 32 0⟩] sd.cat

/-- The target words of the edge list with the self-loops appended. -/
def dstW (e : IVec ⟨2, ![2, 1600000]⟩ 32) : IVec ⟨1, ![1700000]⟩ 32 :=
  concatenate ⟨1, ![1700000]⟩ 0
    [⟨⟨1, ![1600000]⟩, shapeCast ⟨1, ![1600000]⟩ (extractStridedSlice ⟨2, ![1, 1600000]⟩ ![1, 0] e sd.sl1) sd.sc⟩,
     ⟨⟨1, ![100000]⟩, iotaInDim ⟨1, ![100000]⟩ 32 0⟩] sd.cat

/-- The number of edges arriving at each node. -/
def degV (e : IVec ⟨2, ![2, 1600000]⟩ 32) : FVec Ideal ⟨1, ![100000]⟩ .f32 :=
  degG sd.bM sd.bN sd.bM1 sd.wfSv 0x3F800000#32 (dstW sd e)

/-- The node weight: deg^(-1/2) where the degree is positive, 0 elsewhere. -/
def dinvV (e : IVec ⟨2, ![2, 1600000]⟩ 32) : FVec Ideal ⟨1, ![100000]⟩ .f32 :=
  select (cmpf (F := Ideal) .ogt (degV sd e) (broadcastInDim ⟨1, ![100000]⟩ ![] sd.bN (constant (F := Ideal) S0 .f32 0x00000000#32)))
    (Host.rsqrt (degV sd e)) (broadcastInDim ⟨1, ![100000]⟩ ![] sd.bN (constant (F := Ideal) S0 .f32 0x00000000#32))

/-- The weight of every edge: the product of the node weights at its two ends. -/
def normV (e : IVec ⟨2, ![2, 1600000]⟩ 32) : FVec Ideal ⟨1, ![1700000]⟩ .f32 :=
  mulf
    (Host.gather (LibGraph.vecGather 100000 1700000 sd.wfGv) (dinvV sd e)
      (broadcastInDim ⟨2, ![1700000, 1]⟩ ![0] sd.bM1 (wrapv 100000#32 sd.bM (srcW sd e))))
    (Host.gather (LibGraph.vecGather 100000 1700000 sd.wfGv) (dinvV sd e)
      (broadcastInDim ⟨2, ![1700000, 1]⟩ ![0] sd.bM1 (wrapv 100000#32 sd.bM (dstW sd e))))

/-- A layer's aggregate of a 64-channel node table. -/
def agg64 (e : IVec ⟨2, ![2, 1600000]⟩ 32) (h : FVec Ideal ⟨2, ![100000, 64]⟩ .f32) : FVec Ideal ⟨2, ![100000, 64]⟩ .f32 :=
  aggG 100000#32 sd.bM sd.bN64 sd.bM1 sd.bM64 sd.wfGv sd.wfGr64 sd.wfSr64 (dinvV sd e) h (srcW sd e) (dstW sd e)

/-- A layer's aggregate of a 32-channel node table. -/
def agg32 (e : IVec ⟨2, ![2, 1600000]⟩ 32) (h : FVec Ideal ⟨2, ![100000, 32]⟩ .f32) : FVec Ideal ⟨2, ![100000, 32]⟩ .f32 :=
  aggG 100000#32 sd.bM sd.bN32 sd.bM1 sd.bM32 sd.wfGv sd.wfGr32 sd.wfSr32 (dinvV sd e) h (srcW sd e) (dstW sd e)

/-- A 64-entry bias laid along every row. -/
def rows64 (b : FVec Ideal ⟨1, ![64]⟩ .f32) : FVec Ideal ⟨2, ![100000, 64]⟩ .f32 :=
  broadcastInDim ⟨2, ![100000, 64]⟩ ![0, 1] sd.b64b (broadcastInDim ⟨2, ![1, 64]⟩ ![1] sd.b64a b)

/-- A 32-entry bias laid along every row. -/
def rows32 (b : FVec Ideal ⟨1, ![32]⟩ .f32) : FVec Ideal ⟨2, ![100000, 32]⟩ .f32 :=
  broadcastInDim ⟨2, ![100000, 32]⟩ ![0, 1] sd.b32b (broadcastInDim ⟨2, ![1, 32]⟩ ![1] sd.b32a b)

/-- The hidden layer from its dense part `hlin`: aggregate, add the bias, clip at zero. -/
def hidden (e : IVec ⟨2, ![2, 1600000]⟩ 32) (hlin : FVec Ideal ⟨2, ![100000, 64]⟩ .f32) (b : FVec Ideal ⟨1, ![64]⟩ .f32) :
    FVec Ideal ⟨2, ![100000, 64]⟩ .f32 :=
  maximumf (addf (agg64 sd e hlin) (rows64 sd b))
    (broadcastInDim ⟨2, ![100000, 64]⟩ ![] sd.bN64 (constant (F := Ideal) S0 .f32 0x00000000#32))

/-- An output layer from its dense part: aggregate and add the bias. -/
def outOf (e : IVec ⟨2, ![2, 1600000]⟩ 32) (hW : FVec Ideal ⟨2, ![100000, 32]⟩ .f32) (b : FVec Ideal ⟨1, ![32]⟩ .f32) :
    FVec Ideal ⟨2, ![100000, 32]⟩ .f32 :=
  addf (agg32 sd e hW) (rows32 sd b)

end Cert.Spec

end
-- ==== Proof.KernelRead.lean ====
/-
  The idealized kernel program's two results as functions of its arguments.

  Reading the fold of buffer contents back from the last segment boundary:
    · before the first region the host operations build the edge words, the node weights and the edge weights, and pad
      the node features x with 2400 zero rows;
    · the first region leaves  pad(x) · W1  in its output array; its first 100000 rows are the dense part of the hidden
      layer, which the host operations aggregate over the edges, shift by the bias b1 and clip at zero;
    · the host operations aggregate the hidden layer once more, pad the aggregate with zero rows and join Wmu and Wlv
      side by side into one [64, 64] matrix;
    · the second region leaves  pad(aggregate) · [Wmu | Wlv]  in its output array; the results are its first 100000
      rows, columns [0, 32) plus the bias bmu and columns [32, 64) plus the bias blv.
  The graph operations are the shared specification's (`Cert.Spec`), stated for any witness `sd` of its shape facts.
-/
import proofs.«131048_j28286654612005_2_alg».proof.Proof.KernelRun
import proofs.«131048_j28286654612005_2_alg».proof.Proof.RegionValue
import proofs.«131048_j28286654612005_2_alg».proof.Proof.Spec
import Idealize.ShloMosaic.Lib.StableHlo.Run

set_option maxRecDepth 16384

noncomputable section

namespace Cert.KernelIdeal.ReadV

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.RegionV

/-! ## The layout pieces only this program has -/

/-- The node features with 2400 zero rows appended. -/
def padX (x : FVec Ideal S100000x128 .f32) : FVec Ideal S102400x128 .f32 :=
  pad S102400x128 ![0, 0] ![2400, 0] ![0, 0] x (sitofp (F := Ideal) .f32 (constantI S_ 32 0#32))
    Facts₀.pads_S100000x128_S102400x128_024000_000 Facts₀.h_S_

/-- A 64-channel node table with 2400 zero rows appended. -/
def padH (x : FVec Ideal S100000x64 .f32) : FVec Ideal S102400x64 .f32 :=
  pad S102400x64 ![0, 0] ![2400, 0] ![0, 0] x (sitofp (F := Ideal) .f32 (constantI S_ 32 0#32))
    Facts₀.pads_S100000x64_S102400x64_024000_000 Facts₀.h_S_

/-- The first 100000 rows of a padded table. -/
def rowsOf (y : FVec Ideal S102400x64 .f32) : FVec Ideal S100000x64 .f32 :=
  extractStridedSlice S100000x64 ![0, 0] y Facts₀.slices_S102400x64_S100000x64_0_0

/-- Two [64, 32] matrices side by side. -/
def wcat (a b : FVec Ideal S64x32 .f32) : FVec Ideal S64x64 .f32 :=
  concatenate S64x64 1 [⟨S64x32, a⟩, ⟨S64x32, b⟩] Facts₀.concatenates_S64x32_S64x32_S64x64_d1

/-- An edge row with the self-loop words appended. -/
def catW (a : IVec S1600000 32) (b : IVec S100000 32) : IVec S1700000 32 :=
  concatenate S1700000 0 [⟨S1600000, a⟩, ⟨S100000, b⟩] Facts₀.concatenates_S1600000_S100000_S1700000_d0

theorem catW_fold (a : IVec S1600000 32) (b : IVec S100000 32) :
    concatenate S1700000 0 [⟨S1600000, a⟩, ⟨S100000, b⟩] Facts₀.concatenates_S1600000_S100000_S1700000_d0 = catW a b := rfl

theorem wcat_fold (a b : FVec Ideal S64x32 .f32) :
    concatenate S64x64 1 [⟨S64x32, a⟩, ⟨S64x32, b⟩] Facts₀.concatenates_S64x32_S64x32_S64x64_d1 = wcat a b := rfl

/-- One pass over a fold of host operations: every operation's result at its own buffer is its function of the contents
    before it, at any other buffer the contents before it; a joined pair is named, so that the pass goes on into its parts. -/
macro "walk" : tactic => `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', catW_fold, wcat_fold])

variable (m : (ℓ : Loc nD τ sig) → Buf (Elt Ideal) ℓ) (ρ : Dev nD → PrngReg) (sd : Cert.Spec.Side)

/-! ## The values along the program -/

/-- The dense part of the hidden layer: the first region's output, unpadded. -/
def hlinK (c : Dev nD) : FVec Ideal S100000x64 .f32 := rowsOf (prod0 (padX (m ((c : Thread nD τ).loc main_arg0))) (m ((c : Thread nD τ).loc main_arg2)))

/-- The hidden layer. -/
def hidK (c : Dev nD) : FVec Ideal S100000x64 .f32 := Cert.Spec.hidden sd (m ((c : Thread nD τ).loc main_arg1)) (hlinK m c) (m ((c : Thread nD τ).loc main_arg3))

/-- The second region's output, unpadded: the aggregate of the hidden layer times the joined matrix. -/
def linCat (c : Dev nD) : FVec Ideal S100000x64 .f32 :=
  rowsOf (prod1 (padH (Cert.Spec.agg64 sd (m ((c : Thread nD τ).loc main_arg1)) (hidK m sd c))) (wcat (m ((c : Thread nD τ).loc main_arg4)) (m ((c : Thread nD τ).loc main_arg6))))

/-- The first result. -/
def muK (c : Dev nD) : FVec Ideal S100000x32 .f32 :=
  addf (extractStridedSlice S100000x32 ![0, 0] (linCat m sd c) Facts₀.slices_S100000x64_S100000x32_0_0) (Cert.Spec.rows32 sd (m ((c : Thread nD τ).loc main_arg5)))

/-- The second result. -/
def lvK (c : Dev nD) : FVec Ideal S100000x32 .f32 :=
  addf (extractStridedSlice S100000x32 ![0, 32] (linCat m sd c) Facts₀.slices_S100000x64_S100000x32_0_32) (Cert.Spec.rows32 sd (m ((c : Thread nD τ).loc main_arg7)))

/-! ## Reading the fold, one stretch of host operations at a time

Each lemma reads one buffer at one segment boundary in terms of buffers at the boundary before; the outlined
functions (`where`, `relu`, `pad`) are read first as the printed operations of the earlier boundary's buffers, so that
the transports between a buffer's type and a value's type fall away between identical terms. -/

/-! ### After the first stretch: the edge words and the parts of the node weight -/

theorem r1_v5 (c : Dev nD) : W1 m ρ c (Proc.devRef .tc main_v5) = Cert.Spec.srcW sd (m ((c : Thread nD τ).loc main_arg1)) := by
  dsimp only [W1, hostOps0]
  walk
  rfl

theorem r1_v6 (c : Dev nD) : W1 m ρ c (Proc.devRef .tc main_v6) = Cert.Spec.dstW sd (m ((c : Thread nD τ).loc main_arg1)) := by
  dsimp only [W1, hostOps0]
  walk
  rfl

theorem r1_v12 (c : Dev nD) : W1 m ρ c (Proc.devRef .tc main_v12)
    = cmpf (F := Ideal) .ogt (Cert.Spec.degV sd (m ((c : Thread nD τ).loc main_arg1)))
        (broadcastInDim S100000 ![] Facts₀.bcast_S_S100000 (constant (F := Ideal) S_ .f32 0x00000000#32)) := by
  dsimp only [W1, hostOps0]
  walk
  rfl

theorem r1_v13 (c : Dev nD) : W1 m ρ c (Proc.devRef .tc main_v13) = Host.rsqrt (Cert.Spec.degV sd (m ((c : Thread nD τ).loc main_arg1))) := by
  dsimp only [W1, hostOps0]
  walk
  rfl

theorem r1_cst2 (c : Dev nD) : W1 m ρ c (Proc.devRef .tc main_cst_2) = constant (F := Ideal) S_ .f32 0x00000000#32 := by
  dsimp only [W1, hostOps0]
  walk

/-! ### After `where`: the node weight -/

theorem r2_v14_printed (c : Dev nD) : W2 m ρ c (Proc.devRef .tc main_v14)
    = select (W1 m ρ c (Proc.devRef .tc main_v12)) (W1 m ρ c (Proc.devRef .tc main_v13))
        (broadcastInDim S100000 ![] Facts₀.bcast_S_S100000 (W1 m ρ c (Proc.devRef .tc main_cst_2))) := by
  dsimp only [W2, hostOps0_1]
  generalize W1 m ρ c = V
  walk
  rfl

theorem r2_v14 (c : Dev nD) : W2 m ρ c (Proc.devRef .tc main_v14) = Cert.Spec.dinvV sd (m ((c : Thread nD τ).loc main_arg1)) := by
  rw [r2_v14_printed, r1_v12 m ρ sd, r1_v13 m ρ sd, r1_cst2]
  rfl

theorem r2_v5 (c : Dev nD) : W2 m ρ c (Proc.devRef .tc main_v5) = Cert.Spec.srcW sd (m ((c : Thread nD τ).loc main_arg1)) := by
  dsimp only [W2, hostOps0_1]
  generalize hV : W1 m ρ c = V
  walk
  subst hV
  exact r1_v5 m ρ sd c

theorem r2_v6 (c : Dev nD) : W2 m ρ c (Proc.devRef .tc main_v6) = Cert.Spec.dstW sd (m ((c : Thread nD τ).loc main_arg1)) := by
  dsimp only [W2, hostOps0_1]
  generalize hV : W1 m ρ c = V
  walk
  subst hV
  exact r1_v6 m ρ sd c

/-! ### After the third stretch: the edge weights -/

theorem r3_v29 (c : Dev nD) : W3 m ρ c (Proc.devRef .tc main_v29) = Cert.Spec.normV sd (m ((c : Thread nD τ).loc main_arg1)) := by
  dsimp only [W3, hostOps0_2]
  generalize hV : W2 m ρ c = V
  walk
  subst hV
  rw [r2_v14 m ρ sd, r2_v5 m ρ sd, r2_v6 m ρ sd]
  rfl

/-! ### The first region -/

/-- The first region's first window: the padded node features. -/
theorem r4_v30 (c : Dev nD) : W4 m ρ c (Proc.devRef .tc main_v30) = padX (m ((c : Thread nD τ).loc main_arg0)) := by
  dsimp only [W4, W3, W2, W1, hostOps0_3, hostOps0_2, hostOps0_1, hostOps0]
  walk
  rfl

/-- The first region's second window: W1 as launched. -/
theorem r4_arg2 (c : Dev nD) : W4 m ρ c (Proc.devRef .tc main_arg2) = (m ((c : Thread nD τ).loc main_arg2)) := by
  dsimp only [W4, W3, W2, W1, hostOps0_3, hostOps0_2, hostOps0_1, hostOps0]
  walk

/-- The first region's output array. -/
theorem r5_v31 (c : Dev nD) : W5 m ρ c (Proc.devRef .tc main_v31) = prod0 (padX (m ((c : Thread nD τ).loc main_arg0))) (m ((c : Thread nD τ).loc main_arg2)) := by
  refine (W5_arr m ρ c 2).trans ((final0 (V4 m ρ) c).trans ?_)
  rw [show V4 m ρ c main_v30 = padX (m ((c : Thread nD τ).loc main_arg0)) from r4_v30 m ρ c,
    show V4 m ρ c main_arg2 = (m ((c : Thread nD τ).loc main_arg2)) from r4_arg2 m ρ c]

/-! ### What the first region leaves untouched -/

theorem r5_v5 (c : Dev nD) : W5 m ρ c (Proc.devRef .tc main_v5) = Cert.Spec.srcW sd (m ((c : Thread nD τ).loc main_arg1)) := by
  rw [W5_of_ne m ρ c main_v5 (by decide)]
  dsimp only [W4, W3, hostOps0_3, hostOps0_2]
  generalize hV : W2 m ρ c = V
  walk
  subst hV
  exact r2_v5 m ρ sd c

theorem r5_v6 (c : Dev nD) : W5 m ρ c (Proc.devRef .tc main_v6) = Cert.Spec.dstW sd (m ((c : Thread nD τ).loc main_arg1)) := by
  rw [W5_of_ne m ρ c main_v6 (by decide)]
  dsimp only [W4, W3, hostOps0_3, hostOps0_2]
  generalize hV : W2 m ρ c = V
  walk
  subst hV
  exact r2_v6 m ρ sd c

theorem r5_v29 (c : Dev nD) : W5 m ρ c (Proc.devRef .tc main_v29) = Cert.Spec.normV sd (m ((c : Thread nD τ).loc main_arg1)) := by
  rw [W5_of_ne m ρ c main_v29 (by decide)]
  dsimp only [W4, hostOps0_3]
  generalize hV : W3 m ρ c = V
  walk
  subst hV
  exact r3_v29 m ρ sd c

theorem r5_arg3 (c : Dev nD) : W5 m ρ c (Proc.devRef .tc main_arg3) = (m ((c : Thread nD τ).loc main_arg3)) := by
  rw [W5_of_ne m ρ c main_arg3 (by decide)]
  dsimp only [W4, W3, W2, W1, hostOps0_3, hostOps0_2, hostOps0_1, hostOps0]
  walk

theorem r5_arg4 (c : Dev nD) : W5 m ρ c (Proc.devRef .tc main_arg4) = (m ((c : Thread nD τ).loc main_arg4)) := by
  rw [W5_of_ne m ρ c main_arg4 (by decide)]
  dsimp only [W4, W3, W2, W1, hostOps0_3, hostOps0_2, hostOps0_1, hostOps0]
  walk

theorem r5_arg5 (c : Dev nD) : W5 m ρ c (Proc.devRef .tc main_arg5) = (m ((c : Thread nD τ).loc main_arg5)) := by
  rw [W5_of_ne m ρ c main_arg5 (by decide)]
  dsimp only [W4, W3, W2, W1, hostOps0_3, hostOps0_2, hostOps0_1, hostOps0]
  walk

theorem r5_arg6 (c : Dev nD) : W5 m ρ c (Proc.devRef .tc main_arg6) = (m ((c : Thread nD τ).loc main_arg6)) := by
  rw [W5_of_ne m ρ c main_arg6 (by decide)]
  dsimp only [W4, W3, W2, W1, hostOps0_3, hostOps0_2, hostOps0_1, hostOps0]
  walk

theorem r5_arg7 (c : Dev nD) : W5 m ρ c (Proc.devRef .tc main_arg7) = (m ((c : Thread nD τ).loc main_arg7)) := by
  rw [W5_of_ne m ρ c main_arg7 (by decide)]
  dsimp only [W4, W3, W2, W1, hostOps0_3, hostOps0_2, hostOps0_1, hostOps0]
  walk

/-! ### The hidden layer -/

theorem r6_v48 (c : Dev nD) : W6 m ρ c (Proc.devRef .tc main_v48)
    = addf (Cert.Spec.agg64 sd (m ((c : Thread nD τ).loc main_arg1)) (hlinK m c)) (Cert.Spec.rows64 sd (m ((c : Thread nD τ).loc main_arg3))) := by
  dsimp only [W6, hostOps1]
  walk
  rw [r5_v31, r5_v5 m ρ sd, r5_v6 m ρ sd, r5_v29 m ρ sd, r5_arg3]
  rfl

theorem r7_v49_printed (c : Dev nD) : W7 m ρ c (Proc.devRef .tc main_v49)
    = maximumf (W6 m ρ c (Proc.devRef .tc main_v48))
        (broadcastInDim S100000x64 ![] Facts₀.bcast_S_S100000x64 (constant (F := Ideal) S_ .f32 0x00000000#32)) := by
  dsimp only [W7, hostOps1_1]
  generalize W6 m ρ c = V
  walk
  rfl

theorem r7_v49 (c : Dev nD) : W7 m ρ c (Proc.devRef .tc main_v49) = hidK m sd c := by
  rw [r7_v49_printed, r6_v48 m ρ sd]
  rfl

theorem r7_v5 (c : Dev nD) : W7 m ρ c (Proc.devRef .tc main_v5) = Cert.Spec.srcW sd (m ((c : Thread nD τ).loc main_arg1)) := by
  dsimp only [W7, W6, hostOps1_1, hostOps1]
  walk
  exact r5_v5 m ρ sd c

theorem r7_v6 (c : Dev nD) : W7 m ρ c (Proc.devRef .tc main_v6) = Cert.Spec.dstW sd (m ((c : Thread nD τ).loc main_arg1)) := by
  dsimp only [W7, W6, hostOps1_1, hostOps1]
  walk
  exact r5_v6 m ρ sd c

theorem r7_v29 (c : Dev nD) : W7 m ρ c (Proc.devRef .tc main_v29) = Cert.Spec.normV sd (m ((c : Thread nD τ).loc main_arg1)) := by
  dsimp only [W7, W6, hostOps1_1, hostOps1]
  walk
  exact r5_v29 m ρ sd c

theorem r7_arg4 (c : Dev nD) : W7 m ρ c (Proc.devRef .tc main_arg4) = (m ((c : Thread nD τ).loc main_arg4)) := by
  dsimp only [W7, W6, hostOps1_1, hostOps1]
  walk
  exact r5_arg4 m ρ c

theorem r7_arg6 (c : Dev nD) : W7 m ρ c (Proc.devRef .tc main_arg6) = (m ((c : Thread nD τ).loc main_arg6)) := by
  dsimp only [W7, W6, hostOps1_1, hostOps1]
  walk
  exact r5_arg6 m ρ c

/-! ### The second aggregate and the second region's windows -/

theorem r8_v62 (c : Dev nD) : W8 m ρ c (Proc.devRef .tc main_v62) = Cert.Spec.agg64 sd (m ((c : Thread nD τ).loc main_arg1)) (hidK m sd c) := by
  dsimp only [W8, hostOps1_2]
  generalize hV : W7 m ρ c = V
  walk
  subst hV
  rw [r7_v49 m ρ sd, r7_v5 m ρ sd, r7_v6 m ρ sd, r7_v29 m ρ sd]
  rfl

theorem r8_v63 (c : Dev nD) : W8 m ρ c (Proc.devRef .tc main_v63) = wcat (m ((c : Thread nD τ).loc main_arg4)) (m ((c : Thread nD τ).loc main_arg6)) := by
  dsimp only [W8, hostOps1_2]
  generalize hV : W7 m ρ c = V
  walk
  subst hV
  rw [r7_arg4, r7_arg6]

theorem r8_c13 (c : Dev nD) : W8 m ρ c (Proc.devRef .tc main_c_13) = constantI S_ 32 0#32 := by
  dsimp only [W8, hostOps1_2]
  walk

theorem r9_v64_printed (c : Dev nD) : W9 m ρ c (Proc.devRef .tc main_v64)
    = pad S102400x64 ![0, 0] ![2400, 0] ![0, 0] (W8 m ρ c (Proc.devRef .tc main_v62))
        (sitofp (F := Ideal) .f32 (W8 m ρ c (Proc.devRef .tc main_c_13)))
        Facts₀.pads_S100000x64_S102400x64_024000_000 Facts₀.h_S_ := by
  dsimp only [W9, hostOps1_3]
  generalize W8 m ρ c = V
  walk
  rfl

/-- The second region's first window: the padded aggregate of the hidden layer. -/
theorem r9_v64 (c : Dev nD) :
    W9 m ρ c (Proc.devRef .tc main_v64) = padH (Cert.Spec.agg64 sd (m ((c : Thread nD τ).loc main_arg1)) (hidK m sd c)) := by
  rw [r9_v64_printed, r8_v62 m ρ sd, r8_c13]
  rfl

/-- The second region's second window: Wmu and Wlv side by side. -/
theorem r9_v63 (c : Dev nD) : W9 m ρ c (Proc.devRef .tc main_v63) = wcat (m ((c : Thread nD τ).loc main_arg4)) (m ((c : Thread nD τ).loc main_arg6)) := by
  dsimp only [W9, hostOps1_3]
  generalize hV : W8 m ρ c = V
  walk
  subst hV
  exact r8_v63 m ρ c

/-- The second region's output array. -/
theorem r10_v65 (c : Dev nD) : W10 m ρ c (Proc.devRef .tc main_v65)
    = prod1 (padH (Cert.Spec.agg64 sd (m ((c : Thread nD τ).loc main_arg1)) (hidK m sd c))) (wcat (m ((c : Thread nD τ).loc main_arg4)) (m ((c : Thread nD τ).loc main_arg6))) := by
  refine (W10_arr m ρ c 2).trans ((final1 (V9 m ρ) c).trans ?_)
  rw [show V9 m ρ c main_v64 = _ from r9_v64 m ρ sd c, show V9 m ρ c main_v63 = _ from r9_v63 m ρ c]

/-- A bias as the last boundary finds it is the bias as launched. -/
theorem r10_arg5 (c : Dev nD) : W10 m ρ c (Proc.devRef .tc main_arg5) = (m ((c : Thread nD τ).loc main_arg5)) := by
  rw [W10_of_ne m ρ c main_arg5 (by decide)]
  dsimp only [W9, W8, W7, W6, hostOps1_3, hostOps1_2, hostOps1_1, hostOps1]
  walk
  exact r5_arg5 m ρ c

theorem r10_arg7 (c : Dev nD) : W10 m ρ c (Proc.devRef .tc main_arg7) = (m ((c : Thread nD τ).loc main_arg7)) := by
  rw [W10_of_ne m ρ c main_arg7 (by decide)]
  dsimp only [W9, W8, W7, W6, hostOps1_3, hostOps1_2, hostOps1_1, hostOps1]
  walk
  exact r5_arg7 m ρ c

/-! ### The results -/

/-- The first result at the last boundary. -/
theorem r11_v70 (c : Dev nD) : W11 m ρ c (Proc.devRef .tc main_v70) = muK m sd c := by
  dsimp only [W11, hostOps2]
  walk
  rw [r10_v65 m ρ sd, r10_arg5]
  rfl

/-- The second result at the last boundary. -/
theorem r11_v74 (c : Dev nD) : W11 m ρ c (Proc.devRef .tc main_v74) = lvK m sd c := by
  dsimp only [W11, hostOps2]
  walk
  rw [r10_v65 m ρ sd, r10_arg7]
  rfl

/-! ## The run -/

/-- Every weakly fair execution of the idealized kernel program terminates with its results at `muK` and `lvK` of the
    launch contents and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v70) = muK m sd c
      ∧ r.2.mem ((c.tc : Thread nD τ).loc main_v74) = lvK m sd c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (r11_v70 m g sd c), (h c).2.1.trans (r11_v74 m g sd c), (h c).2.2⟩)
    (Cert.KernelIdeal.RunV.run_results m g)

end Cert.KernelIdeal.ReadV

end
-- ==== Proof.RefSide.lean ====
/-
  The idealized reference program's two results as functions of its arguments.

  The reference runs three graph-convolution layers, each a dense product followed by the aggregate over the edges and a
  bias: the hidden layer  h = max(Â (x · W1) + b1, 0)  and the two outputs  Â (h · Wmu) + bmu  and  Â (h · Wlv) + blv,
  where Â is the normalised aggregate of the shared specification (`Cert.Spec`); it rebuilds the edge words and the node
  weights for every layer, from the same argument each time.  Its shape facts witness the specification's (`side`).
-/
import proofs.«131048_j28286654612005_2_alg».proof.Proof.RefRun
import proofs.«131048_j28286654612005_2_alg».proof.Proof.Spec

set_option maxRecDepth 16384

noncomputable section

namespace Cert.ReferenceIdeal.RefV

open Idealize.ShloMosaic Idealize.ShloMosaic.TcCoe Idealize.SL.Sem Idealize.ShloMosaic.StableHlo
open Cert.ReferenceIdeal
open Cert.ReferenceIdeal.Facts₀

/-- The reference's shape facts witness the specification's. -/
theorem side : Cert.Spec.Side where
  sl0 := slices_S2x1600000_S1x1600000_0_0
  sl1 := slices_S2x1600000_S1x1600000_1_0
  sc := shapeCasts_S1x1600000_S1600000
  cat := concatenates_S1600000_S100000_S1700000_d0
  bM := bcast_S_S1700000
  bN := bcast_S_S100000
  bN64 := bcast_S_S100000x64
  bN32 := bcast_S_S100000x32
  bM1 := bcast_S1700000_S1700000x1_0
  bM64 := bcast_S1700000x1_S1700000x64_0_1
  bM32 := bcast_S1700000x1_S1700000x32_0_1
  wfSv := scatter_S100000_S1700000x1_S1700000_n_0_0_1_wf
  wfGv := gather_S100000_S1700000x1_S1700000_n_0_n_n_0_1_1_wf
  wfGr64 := gather_S100000x64_S1700000x1_S1700000x64_1_0_n_n_0_1_164_wf
  wfGr32 := gather_S100000x32_S1700000x1_S1700000x32_1_0_n_n_0_1_132_wf
  wfSr64 := scatter_S100000x64_S1700000x1_S1700000x64_1_0_0_1_wf
  wfSr32 := scatter_S100000x32_S1700000x1_S1700000x32_1_0_0_1_wf
  b64a := bcast_S64_S1x64_1
  b64b := bcast_S1x64_S100000x64_0_1
  b32a := bcast_S32_S1x32_1
  b32b := bcast_S1x32_S100000x32_0_1

variable (m : (ℓ : Loc nD τ sig) → Buf (Elt Ideal) ℓ)

/-- The hidden layer. -/
def hidR (c : Dev nD) : FVec Ideal S100000x64 .f32 :=
  Cert.Spec.hidden side (m ((c : Thread nD τ).loc main_arg1))
    (Host.dotGeneral (φ₁ := .f32) (φ₂ := .f32) dot_S100000x128_S128x64_S100000x64_1_0_0_1_n_n none ((m ((c : Thread nD τ).loc main_arg0)) : FVec Ideal S100000x128 .f32) ((m ((c : Thread nD τ).loc main_arg2)) : FVec Ideal S128x64 .f32)) (m ((c : Thread nD τ).loc main_arg3))

/-- The first result. -/
def muR (c : Dev nD) : FVec Ideal S100000x32 .f32 :=
  Cert.Spec.outOf side (m ((c : Thread nD τ).loc main_arg1))
    (Host.dotGeneral (φ₁ := .f32) (φ₂ := .f32) dot_S100000x64_S64x32_S100000x32_1_0_0_1_n_n none (hidR m c) ((m ((c : Thread nD τ).loc main_arg4)) : FVec Ideal S64x32 .f32)) (m ((c : Thread nD τ).loc main_arg5))

/-- The second result. -/
def lvR (c : Dev nD) : FVec Ideal S100000x32 .f32 :=
  Cert.Spec.outOf side (m ((c : Thread nD τ).loc main_arg1))
    (Host.dotGeneral (φ₁ := .f32) (φ₂ := .f32) dot_S100000x64_S64x32_S100000x32_1_0_0_1_n_n none (hidR m c) ((m ((c : Thread nD τ).loc main_arg6)) : FVec Ideal S64x32 .f32)) (m ((c : Thread nD τ).loc main_arg7))

set_option maxRecDepth 400000 in
/-- The run's first result term is the first output layer. -/
theorem mu_eq (c : Dev nD) : Cert.ReferenceIdeal.ValueP.res_main_v90 (F := Ideal) m c = muR m c := by
  rfl

set_option maxRecDepth 400000 in
/-- The run's second result term is the second output layer. -/
theorem lv_eq (c : Dev nD) : Cert.ReferenceIdeal.ValueP.res_main_v133 (F := Ideal) m c = lvR m c := by
  rfl

/-- Every weakly fair execution of the idealized reference terminates with its results at `muR` and `lvR` of the launch
    contents and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v90) = muR m c
      ∧ r.2.mem ((c.tc : Thread nD τ).loc main_v133) = lvR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (mu_eq m c), (h c).2.1.trans (lv_eq m c), (h c).2.2⟩)
    (Cert.ReferenceIdeal.ValueP.run (F := Ideal) m ρ)

end Cert.ReferenceIdeal.RefV

end
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.LibAggLaw.lean ====
/-
  The algebra of one graph-convolution layer followed by a dense map, on the extended reals.

  An aggregate over edges is a masked, weighted sum: entry k of the aggregate at a node is
      0 + Σ_e [P e] · a(e, k) · c(e),
  with P e saying that edge e arrives at the node, a(e, ·) the source row of the edge and c(e) its weight.
  Multiplying the aggregate by a matrix column w(·) on the right,
      Σ_k (0 + Σ_e [P e] · a(e, k) · c(e)) · w(k)   =   0 + Σ_e [P e] · (Σ_k a(e, k) · w(k)) · c(e),
  is an exchange of two finite sums together with distributivity.  On the extended reals distributivity fails at the
  infinities, so the law is stated for entries that are real numbers: it is proved on ℝ and carried over by the
  coercion, which commutes with sums, products and the mask.
  The closure facts below say that such aggregates, a bias added and a clip at zero keep entries real.
-/
import proofs.«131048_j28286654612005_2_alg».proof.Proof.LibRealSum
import Mathlib.Algebra.BigOperators.Ring.Finset
import Mathlib.Algebra.BigOperators.Group.Finset.Sigma
import Mathlib.Tactic.Ring

open scoped BigOperators

namespace Cert.GcnLaw

open Cert.LibRealSum

/-- The law over the reals: exchange the two sums and distribute. -/
theorem real_law {E K : Type} [Fintype E] [Fintype K] (P : E → Prop) [DecidablePred P]
    (a : E → K → ℝ) (c : E → ℝ) (w : K → ℝ) :
    ∑ k, (∑ e, if P e then a e k * c e else 0) * w k = ∑ e, if P e then (∑ k, a e k * w k) * c e else 0 := by
  have h1 : ∀ k, (∑ e, if P e then a e k * c e else 0) * w k = ∑ e, (if P e then a e k * c e else 0) * w k :=
    fun k => Finset.sum_mul _ _ _
  rw [Finset.sum_congr rfl fun k _ => h1 k, Finset.sum_comm]
  refine Finset.sum_congr rfl fun e _ => ?_
  by_cases h : P e
  · simp only [if_pos h]
    rw [Finset.sum_mul]
    exact Finset.sum_congr rfl fun k _ => by ring
  · simp only [if_neg h, zero_mul, Finset.sum_const_zero]

/-- The coercion commutes with a mask. -/
theorem coe_mask (P : Prop) [Decidable P] (x : ℝ) :
    ((if P then x else 0 : ℝ) : EReal) = if P then (x : EReal) else 0 := by
  split_ifs <;> rfl

/-- The law on the extended reals, for real entries. -/
theorem agg_matmul {E K : Type} [Fintype E] [Fintype K] (P : E → Prop) [DecidablePred P]
    (a : E → K → EReal) (c : E → EReal) (w : K → EReal)
    (ha : ∀ e k, IsReal (a e k)) (hc : ∀ e, IsReal (c e)) (hw : ∀ k, IsReal (w k)) :
    ∑ k, ((0 : EReal) + ∑ e, if P e then a e k * c e else 0) * w k
      = (0 : EReal) + ∑ e, if P e then (∑ k, a e k * w k) * c e else 0 := by
  choose ar har using ha
  choose cr hcr using hc
  choose wr hwr using hw
  have hL : ∀ k, ((0 : EReal) + ∑ e, if P e then a e k * c e else 0) * w k
      = (((∑ e, if P e then ar e k * cr e else 0) * wr k : ℝ) : EReal) := by
    intro k
    rw [zero_add, EReal.coe_mul, coe_sum, hwr]
    refine congrArg (· * (wr k : EReal)) (Finset.sum_congr rfl fun e _ => ?_)
    rw [coe_mask, EReal.coe_mul, har, hcr]
  have hR : ∀ e, (if P e then (∑ k, a e k * w k) * c e else (0 : EReal))
      = ((if P e then (∑ k, ar e k * wr k) * cr e else 0 : ℝ) : EReal) := by
    intro e
    rw [coe_mask, EReal.coe_mul, coe_sum, hcr]
    refine if_congr Iff.rfl (congrArg (· * (cr e : EReal)) (Finset.sum_congr rfl fun k _ => ?_)) rfl
    rw [EReal.coe_mul, har, hwr]
  rw [zero_add]
  simp_rw [hL, hR]
  rw [← coe_sum, ← coe_sum, real_law]

/-- A masked sum of real entries, started at zero, is real. -/
theorem isReal_agg {E : Type} [Fintype E] (P : E → Prop) [DecidablePred P] (t : E → EReal) (ht : ∀ e, IsReal (t e)) :
    IsReal ((0 : EReal) + ∑ e, if P e then t e else 0) := by
  refine IsReal.add ⟨0, rfl⟩ (IsReal.sum _ _ fun e => ?_)
  by_cases h : P e
  · rw [if_pos h]; exact ht e
  · rw [if_neg h]; exact ⟨0, rfl⟩

/-- The larger of two real entries is real. -/
theorem isReal_max {x y : EReal} (hx : IsReal x) (hy : IsReal y) : IsReal (max x y) := by
  rcases le_total x y with h | h
  · rw [max_eq_right h]; exact hy
  · rw [max_eq_left h]; exact hx

/-- An entry that is non-negative and not +∞ is real. -/
theorem isReal_of_nonneg_ne_top {x : EReal} (h0 : 0 ≤ x) (ht : x ≠ ⊤) : IsReal x := by
  induction x using EReal.rec with
  | bot => exact absurd h0 (by simp)
  | coe r => exact ⟨r, rfl⟩
  | top => exact absurd rfl ht

end Cert.GcnLaw
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Bridge.lean ====
/-
  The kernel's two results and the reference's are the same arrays.

  Layer 1 is the same on both sides once the kernel's padded, row-tiled product is read at an entry: a row below 100000
  of  pad(x) · W1  is the row of  x · W1.  So both programs hold the same hidden layer h.
  For layers 2 and 3 the kernel aggregates h once and multiplies the aggregate by the joined matrix [Wmu | Wlv], taking
  columns [0, 32) and [32, 64); the reference multiplies h by Wmu (by Wlv) first and aggregates the product.  At entry
  (n, q) the two are
      Σ_k (0 + Σ_e [d e = n] · h(s e, k) · c e) · W(k, q)     and     0 + Σ_e [d e = n] · (Σ_k h(s e, k) · W(k, q)) · c e,
  equal by exchanging the sums and distributing — which on the extended reals needs every entry real.  The arguments
  are real by the precondition; the node weights are real because  where(deg > 0, deg^(-1/2), 0)  is non-negative and
  never +∞; products, finite sums, a bias added and a clip at zero keep entries real.
-/
import proofs.«131048_j28286654612005_2_alg».proof.Proof.Spec
import proofs.«131048_j28286654612005_2_alg».proof.Proof.LibAggLaw
import proofs.«131048_j28286654612005_2_alg».proof.Proof.LibRowOps
import Idealize.ShloMosaic.Lib.Pipeline.Value
import Idealize.ShloMosaic.Lib.ValueIdx

noncomputable section

open scoped BigOperators

namespace Cert.Bridge

open Idealize.ShloMosaic Idealize.ShloMosaic.ValueIdx Cert.Spec Cert.Gcn Cert.LibRealSum Cert.GcnLaw

/-! ## The graph operations at an entry -/

section Graph
variable (sd : Side) (e : IVec ⟨2, ![2, 1600000]⟩ 32)

theorem hN : 0 < 100000 := by decide

/-- The node an edge's source word names. -/
abbrev sNode (i : Fin 1700000) : Fin 100000 := node hN 100000#32 (srcW sd e (ix1 i))
/-- The node an edge's target word names. -/
abbrev dNode (i : Fin 1700000) : Fin 100000 := node hN 100000#32 (dstW sd e (ix1 i))
/-- An edge's weight: the product of its two ends' node weights. -/
abbrev wgt (i : Fin 1700000) : EReal :=
  (dinvV sd e (ix1 (sNode sd e i)) : EReal) * (dinvV sd e (ix1 (dNode sd e i)) : EReal)

theorem agg64_apply (h : FVec Ideal ⟨2, ![100000, 64]⟩ .f32) (n : Fin 100000) (k : Fin 64) :
    (agg64 sd e h (ix2 n k) : EReal) = (0 : EReal) + ∑ i : Fin 1700000,
      if (dstW sd e (ix1 i)).toInt = (n.val : Int) then (h (ix2 (sNode sd e i) k) : EReal) * wgt sd e i else 0 := by
  unfold agg64
  rw [aggG_apply hN]
  rfl

theorem agg32_apply (h : FVec Ideal ⟨2, ![100000, 32]⟩ .f32) (n : Fin 100000) (k : Fin 32) :
    (agg32 sd e h (ix2 n k) : EReal) = (0 : EReal) + ∑ i : Fin 1700000,
      if (dstW sd e (ix1 i)).toInt = (n.val : Int) then (h (ix2 (sNode sd e i) k) : EReal) * wgt sd e i else 0 := by
  unfold agg32
  rw [aggG_apply hN]
  rfl

/-- The guarded reciprocal square root at an entry, over any vector of degrees. -/
theorem guarded_apply (v z : FVec Ideal ⟨1, ![100000]⟩ .f32) (n : Fin 100000) (hz : z (ix1 n) = (0 : EReal)) :
    (select (cmpf (F := Ideal) .ogt v z) (Host.rsqrt v) z (ix1 n) : EReal)
      = Scalar.select (Ideal.cmp .ogt (v (ix1 n)) 0) (Ideal.rsqrt (v (ix1 n))) (0 : EReal) := by
  rw [select_apply, cmpf_apply, hz]
  rfl

/-- A node weight is a real number. -/
theorem dinv_real (n : Fin 100000) : IsReal (dinvV sd e (ix1 n) : EReal) := by
  have h : (dinvV sd e (ix1 n) : EReal)
      = Scalar.select (Ideal.cmp .ogt (degV sd e (ix1 n)) 0) (Ideal.rsqrt (degV sd e (ix1 n))) (0 : EReal) := by
    unfold dinvV
    exact guarded_apply (degV sd e) _ n (by rw [LibBcast.bcastScalar_apply, constant_apply, Ideal.ofBits_zero_f32])
  obtain ⟨r, hr⟩ := isReal_of_nonneg_ne_top (LibGraph.guardedRsqrt_nonneg_ne_top (degV sd e (ix1 n))).1
    (LibGraph.guardedRsqrt_nonneg_ne_top (degV sd e (ix1 n))).2
  exact ⟨r, h.trans hr⟩

theorem wgt_real (i : Fin 1700000) : IsReal (wgt sd e i) := IsReal.mul (dinv_real sd e _) (dinv_real sd e _)

theorem rows64_apply (b : FVec Ideal ⟨1, ![64]⟩ .f32) (n : Fin 100000) (q : Fin 64) : rows64 sd b (ix2 n q) = b (ix1 q) := by
  unfold rows64
  rw [LibBcast.bcastRow_apply, LibBcast.bcastVecRow_apply]

theorem rows32_apply (b : FVec Ideal ⟨1, ![32]⟩ .f32) (n : Fin 100000) (q : Fin 32) : rows32 sd b (ix2 n q) = b (ix1 q) := by
  unfold rows32
  rw [LibBcast.bcastRow_apply, LibBcast.bcastVecRow_apply]

/-- An aggregate of a real table is real. -/
theorem agg64_real (h : FVec Ideal ⟨2, ![100000, 64]⟩ .f32) (hh : ∀ i, IsReal (h i : EReal)) (n : Fin 100000) (k : Fin 64) :
    IsReal (agg64 sd e h (ix2 n k) : EReal) := by
  rw [agg64_apply]
  exact isReal_agg _ _ fun i => IsReal.mul (hh _) (wgt_real sd e i)

/-- The hidden layer of a real dense part and a real bias is real. -/
theorem hidden_real (hlin : FVec Ideal ⟨2, ![100000, 64]⟩ .f32) (b : FVec Ideal ⟨1, ![64]⟩ .f32)
    (hh : ∀ i, IsReal (hlin i : EReal)) (hb : ∀ i, IsReal (b i : EReal)) (i : (⟨2, ![100000, 64]⟩ : Shape).Idx) :
    IsReal (Cert.Spec.hidden sd e hlin b i : EReal) := by
  obtain ⟨n, q, rfl⟩ : ∃ (n : Fin 100000) (q : Fin 64), i = ix2 n q := ⟨i 0, i 1, eq_ix2 i⟩
  unfold Cert.Spec.hidden
  rw [maximumf_apply, addf_apply, rows64_apply, LibBcast.bcastScalar_apply, constant_apply, Ideal.ofBits_zero_f32]
  exact isReal_max (IsReal.add (agg64_real sd e hlin hh n q) (hb _)) ⟨0, rfl⟩

/-- Aggregating and then multiplying by a real matrix column is multiplying first and then aggregating. -/
theorem agg_then_dense (H : FVec Ideal ⟨2, ![100000, 64]⟩ .f32) (W : FVec Ideal ⟨2, ![64, 32]⟩ .f32)
    (HW : FVec Ideal ⟨2, ![100000, 32]⟩ .f32)
    (hdot : ∀ (p : Fin 100000) (q : Fin 32), (HW (ix2 p q) : EReal) = ∑ k : Fin 64, (H (ix2 p k) : EReal) * (W (ix2 k q) : EReal))
    (hH : ∀ i, IsReal (H i : EReal)) (hW : ∀ i, IsReal (W i : EReal)) (n : Fin 100000) (q : Fin 32) :
    ∑ k : Fin 64, (agg64 sd e H (ix2 n k) : EReal) * (W (ix2 k q) : EReal) = (agg32 sd e HW (ix2 n q) : EReal) := by
  rw [agg32_apply]
  simp only [agg64_apply, hdot]
  exact agg_matmul (fun i : Fin 1700000 => (dstW sd e (ix1 i)).toInt = (n.val : Int))
    (fun i k => (H (ix2 (sNode sd e i) k) : EReal)) (fun i => wgt sd e i) (fun k => (W (ix2 k q) : EReal))
    (fun i k => hH _) (fun i => wgt_real sd e i) (fun k => hW _)

end Graph

end Cert.Bridge

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.LibPadSlice.lean ====
/-
  Two layout operations of a matrix read at one entry, for any extents and element type.

  * Rows appended below an [R, C] matrix (a pad with low = [0, 0], high = [hi, 0], no interior padding, into [R', C]):
    an entry in one of the first R rows is the matrix's own entry (`pad_rows_apply`); the fill value is not read there.
  * A rectangle of [R', C'] entries cut out of an [R, C] matrix at offsets (o0, o1) (a unit-stride slice): entry (p, q)
    of the cut is entry (o0 + p, o1 + q) of the matrix (`slice2_apply`).
  Imports only the library.
-/
import Idealize.ShloMosaic.Lib.Pipeline.Value
import Idealize.ShloMosaic.Lib.ValueIdx

noncomputable section

namespace Cert.LibPadSlice

open Idealize.ShloMosaic Idealize.ShloMosaic.ValueIdx

/-- Rows appended below a matrix: an entry in an original row is the matrix's. -/
theorem pad_rows_apply {α : Type} {R R' C hi : Nat} (x : (⟨2, ![R, C]⟩ : Shape).Idx → α) {u : Shape} (v : u.Idx → α)
    (h : (⟨2, ![R, C]⟩ : Shape).Pads (![0, 0] : Fin 2 → Nat) ![hi, 0] ![0, 0] ⟨2, ![R', C]⟩) (hu : 0 < u.numel)
    (p : Fin R) (hlt : p.val < R') (k : Fin C) :
    pad ⟨2, ![R', C]⟩ ![0, 0] ![hi, 0] ![0, 0] x v h hu (ix2 (⟨p.val, hlt⟩ : Fin R') k) = x (ix2 p k) := by
  unfold pad
  split
  next hin =>
    refine congrArg x (funext fun a => Fin.ext ?_)
    match a with
    | ⟨0, _⟩ => show (p.val - 0) / (0 + 1) = p.val; rw [Nat.sub_zero, Nat.div_one]
    | ⟨1, _⟩ => show (k.val - 0) / (0 + 1) = k.val; rw [Nat.sub_zero, Nat.div_one]
  next hn =>
    refine absurd (fun a => ?_) hn
    match a with
    | ⟨0, _⟩ =>
      refine ⟨Nat.zero_le _, Nat.mod_one _, ?_⟩
      show (p.val - 0) / (0 + 1) < R
      rw [Nat.sub_zero, Nat.div_one]; exact p.isLt
    | ⟨1, _⟩ =>
      refine ⟨Nat.zero_le _, Nat.mod_one _, ?_⟩
      show (k.val - 0) / (0 + 1) < C
      rw [Nat.sub_zero, Nat.div_one]; exact k.isLt

/-- A rectangle cut out of a matrix, at an entry. -/
theorem slice2_apply {α : Type} {R C R' C' o0 o1 : Nat} (x : (⟨2, ![R, C]⟩ : Shape).Idx → α)
    (h : (⟨2, ![R, C]⟩ : Shape).Slices ![o0, o1] ⟨2, ![R', C']⟩) (p : Fin R') (q : Fin C') (p' : Fin R) (q' : Fin C)
    (hp : p'.val = o0 + p.val) (hq : q'.val = o1 + q.val) :
    extractStridedSlice ⟨2, ![R', C']⟩ ![o0, o1] x h (ix2 p q) = x (ix2 p' q') :=
  extractStridedSlice_apply ![o0, o1] x h (ix2 p q) (ix2 p' q') (fun a => by
    match a with
    | ⟨0, _⟩ => exact hp
    | ⟨1, _⟩ => exact hq)

end Cert.LibPadSlice

end
-- ==== Proof.Final.lean ====
/-
  The two programs' results, side by side.

  The kernel's dense parts are read at an entry through their layout: the first 100000 rows of a product of a padded
  table are the rows of the product of the table itself, and a column of the joined matrix [Wa | Wb] is a column of Wa
  (below 32) or of Wb (from 32 on).  The reference's dense parts are the host's matrix products, sums over the contracted
  axis.  With these, the hidden layers coincide, and each result follows from the exchange of the aggregate with the
  dense map (`Cert.Bridge.agg_then_dense`), all entries being real.
-/
import proofs.«131048_j28286654612005_2_alg».proof.Proof.KernelRead
import proofs.«131048_j28286654612005_2_alg».proof.Proof.RefSide
import proofs.«131048_j28286654612005_2_alg».proof.Proof.Bridge
import proofs.«131048_j28286654612005_2_alg».proof.Proof.LibHostDot
import proofs.«131048_j28286654612005_2_alg».proof.Proof.LibPadSlice

noncomputable section

open scoped BigOperators

namespace Cert.Final

open Idealize.ShloMosaic Idealize.ShloMosaic.ValueIdx Cert.Spec Cert.Bridge Cert.LibRealSum Cert.GcnLaw Cert.LibPadSlice
open Cert.KernelIdeal.ReadV Cert.KernelIdeal.RegionV

/-! ## The host's matrix products at an entry -/

theorem dot1_apply (l : FVec Ideal ⟨2, ![100000, 128]⟩ .f32) (r : FVec Ideal ⟨2, ![128, 64]⟩ .f32) (p : Fin 100000) (q : Fin 64) :
    (Host.dotGeneral (φ₁ := .f32) (φ₂ := .f32) Cert.ReferenceIdeal.dot_S100000x128_S128x64_S100000x64_1_0_0_1_n_n none l r (ix2 p q) : EReal)
      = ∑ k : Fin 128, (l (ix2 p k) : EReal) * (r (ix2 k q) : EReal) :=
  (Cert.LibHostDot.dotGeneral_ix2 Cert.ReferenceIdeal.dot_S100000x128_S128x64_S100000x64_1_0_0_1_n_n rfl rfl rfl rfl
    (fun i c => by
      unfold DotDims.lhsIdx
      rw [dif_neg (show ¬(0 : Fin _) ∈ (Cert.ReferenceIdeal.dot_S100000x128_S128x64_S100000x64_1_0_0_1_n_n).lhsBatch by decide),
        dif_pos (show (0 : Fin _) ∈ (Cert.ReferenceIdeal.dot_S100000x128_S128x64_S100000x64_1_0_0_1_n_n).lhsNonContracting by decide)]
      rfl)
    (fun i c => by
      unfold DotDims.rhsIdx
      rw [dif_neg (show ¬(1 : Fin _) ∈ (Cert.ReferenceIdeal.dot_S100000x128_S128x64_S100000x64_1_0_0_1_n_n).rhsBatch by decide),
        dif_pos (show (1 : Fin _) ∈ (Cert.ReferenceIdeal.dot_S100000x128_S128x64_S100000x64_1_0_0_1_n_n).rhsNonContracting by decide)]
      rfl)
    none l r p q)

theorem dot2_apply (l : FVec Ideal ⟨2, ![100000, 64]⟩ .f32) (r : FVec Ideal ⟨2, ![64, 32]⟩ .f32) (p : Fin 100000) (q : Fin 32) :
    (Host.dotGeneral (φ₁ := .f32) (φ₂ := .f32) Cert.ReferenceIdeal.dot_S100000x64_S64x32_S100000x32_1_0_0_1_n_n none l r (ix2 p q) : EReal)
      = ∑ k : Fin 64, (l (ix2 p k) : EReal) * (r (ix2 k q) : EReal) :=
  (Cert.LibHostDot.dotGeneral_ix2 Cert.ReferenceIdeal.dot_S100000x64_S64x32_S100000x32_1_0_0_1_n_n rfl rfl rfl rfl
    (fun i c => by
      unfold DotDims.lhsIdx
      rw [dif_neg (show ¬(0 : Fin _) ∈ (Cert.ReferenceIdeal.dot_S100000x64_S64x32_S100000x32_1_0_0_1_n_n).lhsBatch by decide),
        dif_pos (show (0 : Fin _) ∈ (Cert.ReferenceIdeal.dot_S100000x64_S64x32_S100000x32_1_0_0_1_n_n).lhsNonContracting by decide)]
      rfl)
    (fun i c => by
      unfold DotDims.rhsIdx
      rw [dif_neg (show ¬(1 : Fin _) ∈ (Cert.ReferenceIdeal.dot_S100000x64_S64x32_S100000x32_1_0_0_1_n_n).rhsBatch by decide),
        dif_pos (show (1 : Fin _) ∈ (Cert.ReferenceIdeal.dot_S100000x64_S64x32_S100000x32_1_0_0_1_n_n).rhsNonContracting by decide)]
      rfl)
    none l r p q)

/-! ## The kernel's dense parts at an entry -/

/-- The first region's product, unpadded: row n of x times W1. -/
theorem hlin_apply (x : FVec Ideal ⟨2, ![100000, 128]⟩ .f32) (w : FVec Ideal ⟨2, ![128, 64]⟩ .f32) (n : Fin 100000) (q : Fin 64) :
    (rowsOf (prod0 (padX x) w) (ix2 n q) : EReal) = ∑ k : Fin 128, (x (ix2 n k) : EReal) * (w (ix2 k q) : EReal) := by
  unfold rowsOf
  rw [slice2_apply _ _ n q (⟨n.val, by have := n.isLt; omega⟩ : Fin 102400) q (by simp) (by simp), prod0_ix2]
  refine Finset.sum_congr rfl fun k _ => ?_
  unfold padX
  rw [pad_rows_apply x _ _ _ n _ k]

/-- The second region's product, unpadded, at a column of its left half: row n of the table times Wa. -/
theorem lin_left_apply (A : FVec Ideal ⟨2, ![100000, 64]⟩ .f32) (wa wb : FVec Ideal ⟨2, ![64, 32]⟩ .f32)
    (n : Fin 100000) (q : Fin 32) :
    (extractStridedSlice Cert.KernelIdeal.S100000x32 ![0, 0] (rowsOf (prod1 (padH A) (wcat wa wb)))
        Cert.KernelIdeal.Facts₀.slices_S100000x64_S100000x32_0_0 (ix2 n q) : EReal)
      = ∑ k : Fin 64, (A (ix2 n k) : EReal) * (wa (ix2 k q) : EReal) := by
  have hq : q.val < 64 := by have := q.isLt; omega
  rw [slice2_apply _ _ n q n (⟨q.val, hq⟩ : Fin 64) (by simp) (by simp)]
  unfold rowsOf
  rw [slice2_apply _ _ n (⟨q.val, hq⟩ : Fin 64) (⟨n.val, by have := n.isLt; omega⟩ : Fin 102400) (⟨q.val, hq⟩ : Fin 64)
    (by simp) (by simp), prod1_ix2]
  refine Finset.sum_congr rfl fun k _ => ?_
  unfold padH wcat
  rw [pad_rows_apply A _ _ _ n _ k, Cert.LibRowOps.concat2_apply_0 wa wb _ k (⟨q.val, hq⟩ : Fin 64) q rfl]

/-- The same at a column of its right half: row n of the table times Wb. -/
theorem lin_right_apply (A : FVec Ideal ⟨2, ![100000, 64]⟩ .f32) (wa wb : FVec Ideal ⟨2, ![64, 32]⟩ .f32)
    (n : Fin 100000) (q : Fin 32) :
    (extractStridedSlice Cert.KernelIdeal.S100000x32 ![0, 32] (rowsOf (prod1 (padH A) (wcat wa wb)))
        Cert.KernelIdeal.Facts₀.slices_S100000x64_S100000x32_0_32 (ix2 n q) : EReal)
      = ∑ k : Fin 64, (A (ix2 n k) : EReal) * (wb (ix2 k q) : EReal) := by
  have hq : 32 + q.val < 64 := by have := q.isLt; omega
  rw [slice2_apply _ _ n q n (⟨32 + q.val, hq⟩ : Fin 64) (by simp) rfl]
  unfold rowsOf
  rw [slice2_apply _ _ n (⟨32 + q.val, hq⟩ : Fin 64) (⟨n.val, by have := n.isLt; omega⟩ : Fin 102400)
    (⟨32 + q.val, hq⟩ : Fin 64) (by simp) (by simp), prod1_ix2]
  refine Finset.sum_congr rfl fun k _ => ?_
  unfold padH wcat
  rw [pad_rows_apply A _ _ _ n _ k, Cert.LibRowOps.concat2_apply_1 wa wb _ k (⟨32 + q.val, hq⟩ : Fin 64) q rfl]

/-! ## The bridge -/

section
variable (sd : Side) (e : IVec ⟨2, ![2, 1600000]⟩ 32)
  (x : FVec Ideal ⟨2, ![100000, 128]⟩ .f32) (w1 : FVec Ideal ⟨2, ![128, 64]⟩ .f32) (b1 : FVec Ideal ⟨1, ![64]⟩ .f32)
  (wa wb : FVec Ideal ⟨2, ![64, 32]⟩ .f32)
  (hx : ∀ i, IsReal (x i : EReal)) (hw1 : ∀ i, IsReal (w1 i : EReal)) (hb1 : ∀ i, IsReal (b1 i : EReal))
  (hwa : ∀ i, IsReal (wa i : EReal)) (hwb : ∀ i, IsReal (wb i : EReal))

/-- The two programs' dense parts of the hidden layer are one array. -/
theorem hlin_eq : rowsOf (prod0 (padX x) w1)
    = Host.dotGeneral (φ₁ := .f32) (φ₂ := .f32) Cert.ReferenceIdeal.dot_S100000x128_S128x64_S100000x64_1_0_0_1_n_n none x w1 := by
  funext i
  obtain ⟨n, q, rfl⟩ : ∃ (n : Fin 100000) (q : Fin 64), i = ix2 n q := ⟨i 0, i 1, eq_ix2 i⟩
  exact (hlin_apply x w1 n q).trans (dot1_apply x w1 n q).symm

/-- The hidden layer, as the reference spells it. -/
abbrev hid : FVec Ideal ⟨2, ![100000, 64]⟩ .f32 :=
  Cert.Spec.hidden sd e (Host.dotGeneral (φ₁ := .f32) (φ₂ := .f32) Cert.ReferenceIdeal.dot_S100000x128_S128x64_S100000x64_1_0_0_1_n_n none x w1) b1

include hx hw1 hb1 in
/-- The hidden layer's entries are real. -/
theorem hid_real (i : (⟨2, ![100000, 64]⟩ : Shape).Idx) : IsReal (hid sd e x w1 b1 i : EReal) := by
  refine hidden_real sd e _ b1 (fun j => ?_) hb1 i
  obtain ⟨n, q, rfl⟩ : ∃ (n : Fin 100000) (q : Fin 64), j = ix2 n q := ⟨j 0, j 1, eq_ix2 j⟩
  rw [dot1_apply]
  exact IsReal.sum _ _ fun k => IsReal.mul (hx _) (hw1 _)

include hx hw1 hb1 hwa in
/-- The kernel's left half against the reference's layer over Wa. -/
theorem left_eq (bias : FVec Ideal ⟨1, ![32]⟩ .f32) :
    addf (extractStridedSlice Cert.KernelIdeal.S100000x32 ![0, 0]
          (rowsOf (prod1 (padH (agg64 sd e (Cert.Spec.hidden sd e (rowsOf (prod0 (padX x) w1)) b1))) (wcat wa wb)))
          Cert.KernelIdeal.Facts₀.slices_S100000x64_S100000x32_0_0) (rows32 sd bias)
      = outOf sd e (Host.dotGeneral (φ₁ := .f32) (φ₂ := .f32) Cert.ReferenceIdeal.dot_S100000x64_S64x32_S100000x32_1_0_0_1_n_n none (hid sd e x w1 b1) wa) bias := by
  rw [hlin_eq]
  funext i
  obtain ⟨n, q, rfl⟩ : ∃ (n : Fin 100000) (q : Fin 32), i = ix2 n q := ⟨i 0, i 1, eq_ix2 i⟩
  unfold outOf
  rw [addf_apply, addf_apply]
  refine congrArg (· + (rows32 sd bias (ix2 n q) : EReal)) ?_
  rw [lin_left_apply]
  exact agg_then_dense sd e (hid sd e x w1 b1) wa _ (dot2_apply (hid sd e x w1 b1) wa)
    (hid_real sd e x w1 b1 hx hw1 hb1) hwa n q

include hx hw1 hb1 hwb in
/-- The kernel's right half against the reference's layer over Wb. -/
theorem right_eq (bias : FVec Ideal ⟨1, ![32]⟩ .f32) :
    addf (extractStridedSlice Cert.KernelIdeal.S100000x32 ![0, 32]
          (rowsOf (prod1 (padH (agg64 sd e (Cert.Spec.hidden sd e (rowsOf (prod0 (padX x) w1)) b1))) (wcat wa wb)))
          Cert.KernelIdeal.Facts₀.slices_S100000x64_S100000x32_0_32) (rows32 sd bias)
      = outOf sd e (Host.dotGeneral (φ₁ := .f32) (φ₂ := .f32) Cert.ReferenceIdeal.dot_S100000x64_S64x32_S100000x32_1_0_0_1_n_n none (hid sd e x w1 b1) wb) bias := by
  rw [hlin_eq]
  funext i
  obtain ⟨n, q, rfl⟩ : ∃ (n : Fin 100000) (q : Fin 32), i = ix2 n q := ⟨i 0, i 1, eq_ix2 i⟩
  unfold outOf
  rw [addf_apply, addf_apply]
  refine congrArg (· + (rows32 sd bias (ix2 n q) : EReal)) ?_
  rw [lin_right_apply]
  exact agg_then_dense sd e (hid sd e x w1 b1) wb _ (dot2_apply (hid sd e x w1 b1) wb)
    (hid_real sd e x w1 b1 hx hw1 hb1) hwb n q

end

end Cert.Final

end
-- ==== Proof.LibFiniteInput.lean ====
/-
  From "all entries have absolute value below +∞" to "every entry is a real number", at ANY shape.

  A finiteness precondition on a float array x is the array-language expression  all (|x| < +∞) : a reduction by
  "and", from the constant 1, of the entrywise comparison of |x| with the +∞ pattern broadcast from a scalar, over
  all axes into a single result.  If that result is 1 then the comparison is 1 at every entry (`all_real`); and on the
  extended reals  max x (−x) < +∞  fails at both infinities, so the entry is the coercion of a real number
  (`real_of_abs_lt_top`).  The +∞ pattern of f32 is `0x7F800000` (`inf_eq`).  Stated for any shape `s`, any list of
  reduced axes, and the shape and reduction facts as variables, so that it applies to a printed predicate's terms as
  they stand.  Imports only the library.
-/
import Idealize.ShloMosaic.Lib.ReduceAll
import Idealize.ShloMosaic.Lib.ValueIdx
import Idealize.ShloMosaic.PureOps.Ideal

noncomputable section

namespace Cert.LibFiniteInput

open Idealize.ShloMosaic Idealize.ShloMosaic.ValueIdx

/-- The scalar shape has one index. -/
instance : Subsingleton (⟨0, ![]⟩ : Shape).Idx := ⟨fun a b => funext fun d => d.elim0⟩

/-- The f32 pattern `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if `all (|x| < +∞)` is 1, every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have h2 : BitVec.ofBool (decide (max (x i) (-(x i)) < Ideal.ofBits .f32 0x7F800000#32)) = 1#1 := h1
  rw [inf_eq] at h2
  refine real_of_abs_lt_top (x i) ?_
  by_contra hn
  rw [decide_eq_false hn] at h2
  exact absurd h2 (by decide)

end Cert.LibFiniteInput

end
-- ==== Proof.Finite.lean ====
/-
  The precondition read: every float argument holds real numbers.

  The precondition is the conjunction, one argument after the other, of  all(|a| < +∞)  over the seven float arguments.
  Where the conjunction is 1 every conjunct is 1, and an extended real whose absolute value is below +∞ is the coercion
  of a real number.  The integer argument (the edge list) is not constrained.
-/
import proofs.«131048_j28286654612005_2_alg».proof.Pre_finite_inputs
import proofs.«131048_j28286654612005_2_alg».proof.Proof.Gen.Pre_finite_inputs
import proofs.«131048_j28286654612005_2_alg».proof.Proof.LibFiniteInput
import proofs.«131048_j28286654612005_2_alg».proof.Proof.LibRealSum
import Idealize.ShloMosaic.Lib.Affine

noncomputable section

namespace Cert.Finite

open Idealize.ShloMosaic Idealize.ShloMosaic.ValueIdx Cert.LibRealSum
open Cert.Pre_finite_inputs Cert.Pre_finite_inputs.Facts

/-- Where the precondition's value is 1, every entry of every float argument is a real number. -/
theorem reals_of_pre (a0 : FVec Ideal S100000x128 .f32) (a1 : IVec S2x1600000 32) (a2 : FVec Ideal S128x64 .f32)
    (a3 : FVec Ideal S64 .f32) (a4 : FVec Ideal S64x32 .f32) (a5 : FVec Ideal S32 .f32) (a6 : FVec Ideal S64x32 .f32)
    (a7 : FVec Ideal S32 .f32) (h : fn (F := Ideal) a0 a1 a2 a3 a4 a5 a6 a7 ix0 = 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  dsimp only [fn, fn_part1] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨fun i => Cert.LibFiniteInput.all_real a0 _ _ _ h0 i, fun i => Cert.LibFiniteInput.all_real a2 _ _ _ h2 i,
    fun i => Cert.LibFiniteInput.all_real a3 _ _ _ h3 i, fun i => Cert.LibFiniteInput.all_real a4 _ _ _ h4 i,
    fun i => Cert.LibFiniteInput.all_real a5 _ _ _ h5 i, fun i => Cert.LibFiniteInput.all_real a6 _ _ _ h6 i,
    fun i => Cert.LibFiniteInput.all_real a7 _ _ _ h7 i⟩

end Cert.Finite

end
-- ==== Proof.lean ====
/-
  A two-layer graph convolution with two output heads, 100000 nodes, 1600000 edges: the kernel program against its
  reference, at the ideal values (extended reals, exact operations).

  Both programs append one self-loop per node to the edge list, count the degree of every node, and weigh an edge by
  deg(source)^(-1/2) · deg(target)^(-1/2) (the weight of a node of degree zero is 0).  Write Â for the aggregate that sends,
  along every edge, the source's row times the edge weight to the target.
    reference:  h = max(Â (x · W1) + b1, 0),   mu = Â (h · Wmu) + bmu,   logvar = Â (h · Wlv) + blv;
    kernel:     the same h, with  x · W1  computed by a pallas_call over 25 row tiles of the zero-padded x;  then ONE
                aggregate  A = Â h,  one pallas_call for  A · [Wmu | Wlv],  and  mu = (·)[:, 0:32] + bmu,
                logvar = (·)[:, 32:64] + blv.
  The two agree because the aggregate acts on the node axis and the dense map on the channel axis:
      (Â h) · W = Â (h · W),
  an exchange of two finite sums with distributivity — valid on the extended reals because every entry involved is a
  real number: the float arguments by the precondition, the node weights because  where(deg > 0, deg^(-1/2), 0)  is
  non-negative and never +∞, and sums, products, a bias and a clip at zero of reals are real.

  The kernel's frame and its idealized frame are the generated launch proofs.  The kernel's run with its results named,
  the reading of its buffers back to the arguments (Proof/KernelRun, Proof/KernelRead, Proof/RegionValue), the
  reference's run (Proof/RefRun, Proof/RefSide), the shared specification (Proof/Spec), the algebra (Proof/GcnLaw,
  Proof/Bridge, Proof/Final) and the decoding of the precondition (Proof/Finite) are the modules imported here.
-/
import proofs.«131048_j28286654612005_2_alg».proof.Defs
import proofs.«131048_j28286654612005_2_alg».proof.Proof.Gen.Kernel.Frame
import proofs.«131048_j28286654612005_2_alg».proof.Proof.Gen.KernelIdeal.Frame
import proofs.«131048_j28286654612005_2_alg».proof.Proof.KernelRead
import proofs.«131048_j28286654612005_2_alg».proof.Proof.RefSide
import proofs.«131048_j28286654612005_2_alg».proof.Proof.Final
import proofs.«131048_j28286654612005_2_alg».proof.Proof.Finite

noncomputable section

namespace Cert.Proof

open Idealize.ShloMosaic Idealize.ShloMosaic.TcCoe Idealize.SL.Sem

/-- The word-level kernel program runs, and its arguments end as launched. -/
theorem frame_k : Cert.frame_Kernel := fun m ρ _ => Cert.Kernel.Gen.frame m ρ

/-- The idealized kernel program runs, and its arguments end as launched. -/
theorem frame_ki : Cert.frame_KernelIdeal := fun m ρ _ => Cert.KernelIdeal.Gen.frame m ρ

/-- The idealized reference runs, and its arguments end as launched: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing in the kernel. -/
theorem preserves : Cert.preserves_Kernel_KernelIdeal := trivial

/-- From memories agreeing on the arguments, under the precondition, both idealized programs end with the same two
    results: the kernel's `muK` / `lvK` of its launch contents, which the reference's `muR` / `lvR` equal entry by entry. -/
theorem algebraic : Cert.algebraic_KernelIdeal_ReferenceIdeal := by
  intro m g m' g' hpre hagree
  refine ⟨fun c => Cert.KernelIdeal.ReadV.muK m Cert.ReferenceIdeal.RefV.side c,
    fun c => Cert.KernelIdeal.ReadV.lvK m Cert.ReferenceIdeal.RefV.side c,
    Cert.KernelIdeal.ReadV.run m Cert.ReferenceIdeal.RefV.side g, ?_⟩
  refine (θ_run Cert.ReferenceIdeal.defs _ _).mono (fun r h c => ⟨(h c).1.trans ?_, (h c).2.1.trans ?_, (h c).2.2⟩)
    (Cert.ReferenceIdeal.RefV.run m' g')
  · obtain ⟨a0, a1, a2, a3, a4, a5, a6, a7⟩ := hagree c
    obtain ⟨hx, hw1, hb1, hwa, _, hwb, _⟩ :=
      Cert.Finite.reals_of_pre _ _ _ _ _ _ _ _ (congrFun (hpre c) ValueIdx.ix0)
    unfold Cert.ReferenceIdeal.RefV.muR Cert.ReferenceIdeal.RefV.hidR
    rw [a0, a1, a2, a3, a4, a5]
    exact (Cert.Final.left_eq Cert.ReferenceIdeal.RefV.side (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      hx hw1 hb1 hwa (m ((c.tc : Thread Cert.KernelIdeal.nD Cert.KernelIdeal.τ).loc Cert.KernelIdeal.main_arg5))).symm
  · obtain ⟨a0, a1, a2, a3, a4, a5, a6, a7⟩ := hagree c
    obtain ⟨hx, hw1, hb1, hwa, _, hwb, _⟩ :=
      Cert.Finite.reals_of_pre _ _ _ _ _ _ _ _ (congrFun (hpre c) ValueIdx.ix0)
    unfold Cert.ReferenceIdeal.RefV.lvR Cert.ReferenceIdeal.RefV.hidR
    rw [a0, a1, a2, a3, a6, a7]
    exact (Cert.Final.right_eq Cert.ReferenceIdeal.RefV.side (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      hx hw1 hb1 hwb (m ((c.tc : Thread Cert.KernelIdeal.nD Cert.KernelIdeal.τ).loc Cert.KernelIdeal.main_arg7))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
